-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xFF61B1E6#32 ⊥
  ∧ IdealRules.named_const.Statement Cert.KernelIdeal.κ "pos_big" .f32 0x7F61B1E6#32 ⊤

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S512 : Shape := ⟨1, ![512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) (main_arg1 : IVec S512 32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Kernel.lean ====
abbrev S512x256 : Shape := ⟨2, ![512, 256]⟩
abbrev S512 : Shape := ⟨1, ![512]⟩
abbrev S512x1 : Shape := ⟨2, ![512, 1]⟩
abbrev S1x512 : Shape := ⟨2, ![1, 512]⟩
abbrev S1x1 : Shape := ⟨2, ![1, 1]⟩
abbrev S16x256 : Shape := ⟨2, ![16, 256]⟩
abbrev S16x1 : Shape := ⟨2, ![16, 1]⟩
abbrev S16x1x256 : Shape := ⟨3, ![16, 1, 256]⟩
abbrev S1x512x256 : Shape := ⟨3, ![1, 512, 256]⟩
abbrev S16x512x256 : Shape := ⟨3, ![16, 512, 256]⟩
abbrev S16x512 : Shape := ⟨2, ![16, 512]⟩
abbrev S16 : Shape := ⟨1, ![16]⟩
abbrev S1 : Shape := ⟨1, ![1]⟩
abbrev S_ : Shape := ⟨0, ![]⟩

abbrev nBuf : Space → Nat
  | .hbm => 6
  | .vmem => 8
  | .smem => 0
  | _ => 0

abbrev bufTy : (tb : Table) → Fin (tcTables nBuf tb) → BufTy
  | .hbm, ⟨0, _⟩ => ⟨S512x256, .f32⟩
  | .hbm, ⟨1, _⟩ => ⟨S512, .i32⟩
  | .hbm, ⟨2, _⟩ => ⟨S512x1, .i32⟩
  | .hbm, ⟨3, _⟩ => ⟨S1x512, .i32⟩
  | .hbm, ⟨4, _⟩ => ⟨S1x1, .f32⟩
  | .hbm, ⟨5, _⟩ => ⟨S_, .f32⟩
  | .local _ .vmem, ⟨0, _⟩ => ⟨S16x256, .f32⟩
  | .local _ .vmem, ⟨1, _⟩ => ⟨S16x256, .f32⟩
  | .local _ .vmem, ⟨2, _⟩ => ⟨S512x256, .f32⟩
  | .local _ .vmem, ⟨3, _⟩ => ⟨S16x1, .i32⟩
  | .local _ .vmem, ⟨4, _⟩ => ⟨S16x1, .i32⟩
  | .local _ .vmem, ⟨5, _⟩ => ⟨S1x512, .i32⟩
  | .local _ .vmem, ⟨6, _⟩ => ⟨S1x1, .f32⟩
  | .local _ .vmem, ⟨7, _⟩ => ⟨S1x1, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v41 : BitVec 1 := Scalar.cmpi .eq arg0 c31_i32
  let v42 : BitVec 32 := Scalar.extui v41
  let c0_i32_20 : BitVec 32 := 0#32
  let v43 : BitVec 1 := Scalar.cmpi .ne v42 c0_i32_20
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S512_S512x1 : S512.ShapeCasts S512x1
  shapeCasts_S512_S1x512 : S512.ShapeCasts S1x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16x256_S16x256_0_0 : ∀ a, (![0, 0] : Fin 2 → Nat) a + S16x256.size a ≤ S16x256.size a
  h_S16x256 : 0 < S16x256.numel
  inb_S512x256_S512x256_0_0 : ∀ a, (![0, 0] : Fin 2 → Nat) a + S512x256.size a ≤ S512x256.size a
  h_S512x256 : 0 < S512x256.numel
  shapeCasts_S16x256_S16x1x256 : S16x256.ShapeCasts S16x1x256
  shapeCasts_S512x256_S1x512x256 : S512x256.ShapeCasts S1x512x256
  broadcasts_S16x1x256_S16x512x256 : S16x1x256.Broadcasts S16x512x256
  broadcasts_S1x512x256_S16x512x256 : S1x512x256.Broadcasts S16x512x256
  reduces_S16x512x256_S16x512 : S16x512x256.Reduces [2] S16x512
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S16x1_S16x512 : S16x1.Broadcasts S16x512
  broadcasts_S1x512_S16x512 : S1x512.Broadcasts S16x512
  reduces_S16x512_S16 : S16x512.Reduces [1] S16
  shapeCasts_S16_S16x1 : S16.ShapeCasts S16x1
  reduces_S16x1_S1 : S16x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256.size a ≤ S512x256.size a
  hwx0_0 : ∀ i : grid0.Coords, EltTy.bits .f32 = 32 ∨ (Rect.block (s := S512x256) S16x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S512x1.size a
  hwx0_2 : ∀ i : grid0.Coords, EltTy.bits .i32 = 32 ∨ (Rect.block (s := S512x1) S16x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .i32 = 32 ∨ (Rect.block (s := S1x512) S1x512.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S512x256 : Shape := ⟨2, ![512, 256]⟩
abbrev S512 : Shape := ⟨1, ![512]⟩
abbrev S512x1x256 : Shape := ⟨3, ![512, 1, 256]⟩
abbrev S1x512x256 : Shape := ⟨3, ![1, 512, 256]⟩
abbrev S512x512x256 : Shape := ⟨3, ![512, 512, 256]⟩
abbrev S_ : Shape := ⟨0, ![]⟩
abbrev S512x512 : Shape := ⟨2, ![512, 512]⟩
abbrev S512x1 : Shape := ⟨2, ![512, 1]⟩
abbrev S1x512 : Shape := ⟨2, ![1, 512]⟩

abbrev nBuf : Space → Nat
  | .hbm => 41
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512, .i32⟩
  | .hbm, ⟨2, _⟩ => ⟨S512x1x256, .f32⟩
  | .hbm, ⟨3, _⟩ => ⟨S1x512x256, .f32⟩
  | .hbm, ⟨4, _⟩ => ⟨S512x512x256, .f32⟩
  | .hbm, ⟨5, _⟩ => ⟨S512x512x256, .f32⟩
  | .hbm, ⟨6, _⟩ => ⟨S512x512x256, .f32⟩
  | .hbm, ⟨7, _⟩ => ⟨S512x512x256, .f32⟩
  | .hbm, ⟨8, _⟩ => ⟨S_, .f32⟩
  | .hbm, ⟨9, _⟩ => ⟨S512x512, .f32⟩
  | .hbm, ⟨10, _⟩ => ⟨S_, .f32⟩
  | .hbm, ⟨11, _⟩ => ⟨S512x512, .f32⟩
  | .hbm, ⟨12, _⟩ => ⟨S512x512, .f32⟩
  | .hbm, ⟨13, _⟩ => ⟨S512x1, .i32⟩
  | .hbm, ⟨14, _⟩ => ⟨S1x512, .i32⟩
  | .hbm, ⟨15, _⟩ => ⟨S512x512, .i32⟩
  | .hbm, ⟨16, _⟩ => ⟨S512x512, .i32⟩
  | .hbm, ⟨17, _⟩ => ⟨S512x512, .i1⟩
  | .hbm, ⟨18, _⟩ => ⟨S_, .f32⟩
  | .hbm, ⟨19, _⟩ => ⟨S_, .f32⟩
  | .hbm, ⟨20, _⟩ => ⟨S512x512, .f32⟩
  | .hbm, ⟨21, _⟩ => ⟨S512x512, .f32⟩
  | .hbm, ⟨22, _⟩ => ⟨S_, .f32⟩
  | .hbm, ⟨23, _⟩ => ⟨S512, .f32⟩
  | .hbm, ⟨24, _⟩ => ⟨S_, .f32⟩
  | .hbm, ⟨25, _⟩ => ⟨S_, .f32⟩
  | .hbm, ⟨26, _⟩ => ⟨S512x512, .f32⟩
  | .hbm, ⟨27, _⟩ => ⟨S512x512, .f32⟩
  | .hbm, ⟨28, _⟩ => ⟨S_, .f32⟩
  | .hbm, ⟨29, _⟩ => ⟨S512, .f32⟩
  | .hbm, ⟨30, _⟩ => ⟨S512, .f32⟩
  | .hbm, ⟨31, _⟩ => ⟨S_, .f32⟩
  | .hbm, ⟨32, _⟩ => ⟨S512, .f32⟩
  | .hbm, ⟨33, _⟩ => ⟨S512, .f32⟩
  | .hbm, ⟨34, _⟩ => ⟨S_, .f32⟩
  | .hbm, ⟨35, _⟩ => ⟨S512, .f32⟩
  | .hbm, ⟨36, _⟩ => ⟨S512, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_cst_8 : Ref sig .tc := ⟨.hbm, 39, rfl⟩
abbrev main_v24 : Ref sig .tc := ⟨.hbm, 40, rfl⟩

abbrev nD : Nat := 1
abbrev τ : Topo := Topo.v7x

variable {F : FTy → Type} [FloatOps F]

class Facts₀ : Prop where
  bcast_S512x256_S512x1x256_0_2 : S512x256.BroadcastsInDim S512x1x256 (![0, 2] : Fin 2 → Fin S512x1x256.rank)
  bcast_S512x256_S1x512x256_1_2 : S512x256.BroadcastsInDim S1x512x256 (![1, 2] : Fin 2 → Fin S1x512x256.rank)
  bcast_S512x1x256_S512x512x256_0_1_2 : S512x1x256.BroadcastsInDim S512x512x256 (![0, 1, 2] : Fin 3 → Fin S512x512x256.rank)
  bcast_S1x512x256_S512x512x256_0_1_2 : S1x512x256.BroadcastsInDim S512x512x256 (![0, 1, 2] : Fin 3 → Fin S512x512x256.rank)
  reducesTo_S512x512x256_S512x512_d2 : S512x512x256.ReducesTo [2] S512x512
  h_S_ : 0 < S_.numel
  bcast_S_S512x512 : S_.BroadcastsInDim S512x512 (![] : Fin 0 → Fin S512x512.rank)
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  reducesTo_S512x512_S512_d1 : S512x512.ReducesTo [1] S512
  bcast_S_S512 : S_.BroadcastsInDim S512 (![] : Fin 0 → Fin S512.rank)
  reducesTo_S512_S_d0 : S512.ReducesTo [0] S_

variable [Facts₀]

class Facts : Prop extends Facts₀ where

variable [Facts]
-- ==== Proof.KernelBody.lean ====
/-
  The kernel body run at one grid point, in each of the three situations the grid meets.

  The grid has 32 points, one per block of 16 rows. At every point the body loads the block's 16 rows, all 512 rows, the
  block's 16 labels and all 512 labels, and adds the block's partial loss into a one-element accumulator that lives in a
  scratch buffer from point to point. At the first point it first clears the accumulator; at the last point it
  also divides the accumulator by the row count and stores the quotient into the one-element result buffer. So there are
  three situations: the first point, a middle point, the last point. Each run below says that the body terminates without
  a fault, hands the four input buffers back as it found them, and leaves the accumulator (and, at the last point, the
  result buffer) overwritten by the pieces it stored; the pieces are found by running the body.
-/
import proofs.«132789_j13967233646987_2_alg».proof.Proof.Gen.Kernel.Launch
import proofs.«132789_j13967233646987_2_alg».proof.Proof.Gen.Kernel.Skeleton
import proofs.«132789_j13967233646987_2_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whether the point is the first of the grid, as the body computes it from the coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- Whether the point is the last of the grid. -/
abbrev cond0_1 (i : grid0.Coords) : Prop := k0_cond2 i = 1#1
theorem hcond0_1 : ∀ t : Fin cfg0.N, cond0_1 (grid0.coords t) ↔ t.val = 31 :=
  (by decide +kernel : ∀ t : Fin grid0.N, cond0_1 (grid0.coords t) ↔ t.val = 31)

/-- The first four windows are inputs: live at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- The result window is stored into at the last point only: idle, and not written back, at every other point. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

set_option maxHeartbeats 1000000 in
/-- The body at the FIRST point, on whole staging memrefs: the four inputs at their contents and handed back as they were, the
    result's buffer untouched, the accumulator (at anything) left with the pieces the body stored. -/
noncomputable def kernelRun0_A (c : Dev nD) (i : grid0.Coords) (arg1 : Memref sig .tc .vmem S16x256 .f32) (harg1 : arg1.IsWhole) (arg2 : Memref sig .tc .vmem S512x256 .f32) (harg2 : arg2.IsWhole) (arg3 : Memref sig .tc .vmem S16x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S16x256 .f32) (x1 : Vec F S512x256 .f32) (x2 : Vec F S16x1 .i32) (x3 : Vec F S1x512 .i32) :
    { LS0 : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc0__triplet_kernel i arg1 harg1 arg2 harg2 arg3 harg3 arg4 harg4 arg5 harg5 arg6 harg6) K } := by
  refine ⟨?_, fun xi4 E K => ?run⟩
  case run =>
    simp only [cc0__triplet_kernel_eq_skeleton]; unfold cc0__triplet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

set_option maxHeartbeats 1000000 in
/-- The body at a point that is neither the first nor the last: as at the first, the accumulator found at what the point
    before left. -/
noncomputable def kernelRun0_B (c : Dev nD) (i : grid0.Coords) (arg1 : Memref sig .tc .vmem S16x256 .f32) (harg1 : arg1.IsWhole) (arg2 : Memref sig .tc .vmem S512x256 .f32) (harg2 : arg2.IsWhole) (arg3 : Memref sig .tc .vmem S16x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S16x256 .f32) (x1 : Vec F S512x256 .f32) (x2 : Vec F S16x1 .i32) (x3 : Vec F S1x512 .i32) (xs0 : Vec F S1x1 .f32) :
    { LS0 : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc0__triplet_kernel i arg1 harg1 arg2 harg2 arg3 harg3 arg4 harg4 arg5 harg5 arg6 harg6) K } := by
  refine ⟨?_, fun xi4 E K => ?run⟩
  case run =>
    simp only [cc0__triplet_kernel_eq_skeleton]; unfold cc0__triplet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

set_option maxHeartbeats 1000000 in
/-- The body at the LAST point: the accumulator found at what the point before left, and the result's buffer (at
    anything) left with the piece the body stored. -/
noncomputable def kernelRun0_C (c : Dev nD) (i : grid0.Coords) (arg1 : Memref sig .tc .vmem S16x256 .f32) (harg1 : arg1.IsWhole) (arg2 : Memref sig .tc .vmem S512x256 .f32) (harg2 : arg2.IsWhole) (arg3 : Memref sig .tc .vmem S16x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S16x256 .f32) (x1 : Vec F S512x256 .f32) (x2 : Vec F S16x1 .i32) (x3 : Vec F S1x512 .i32) (xs0 : Vec F S1x1 .f32) :
    Σ' (L4 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0__triplet_kernel i arg1 harg1 arg2 harg2 arg3 harg3 arg4 harg4 arg5 harg5 arg6 harg6) K } := by
  refine ⟨?_, ?_, fun E K => ?run⟩
  case run =>
    simp only [cc0__triplet_kernel_eq_skeleton]; unfold cc0__triplet_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.Kernel.Gen

end
-- ==== Proof.KernelData.lean ====
/-
  The proof data of the one pipeline and the body's obligation at every grid point.

  Entering the region, the labels have been reshaped into a column and a row by two host operations; the region's five
  windows are: the block's 16 rows and all 512 rows (two windows onto the SAME array, the first argument), the block's 16
  labels, all 512 labels, and the one-element result. What the accumulator holds after each point is defined by recursion on
  the point from what the body's run leaves in it; the region's invariant carries the accumulator at that contents from
  point to point. The result's staging buffer is left alone at every point but the last, where the body stores into it
  and the pipeline writes it back.
-/
import proofs.«132789_j13967233646987_2_alg».proof.Proof.Gen.Kernel.Launch
import proofs.«132789_j13967233646987_2_alg».proof.Proof.Gen.Kernel.Skeleton
import proofs.«132789_j13967233646987_2_alg».proof.Proof.Gen.Kernel.Points
import proofs.«132789_j13967233646987_2_alg».proof.Proof.KernelBody
import Idealize.ShloMosaic.Lib.Pipeline.FrameBody
import Idealize.ShloMosaic.Lib.Pipeline.Regions
import Idealize.ShloMosaic.Lib.Ring
import Idealize.ShloMosaic.Lib.Tactic
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers as launched, as the host operations' valuation; -/
abbrev V₀ (c : Dev nD) : Valuation τ sig (Elt F) := fun b => m (c, b)
/-- and when the region is entered: the two reshapes of the labels have run. -/
abbrev V0 (c : Dev nD) : Valuation τ sig (Elt F) := StableHlo.after hostOps0 (V₀ m c)
/-- The same read at a TensorCore reference. -/
abbrev V (c : Dev nD) (b : Ref sig .tc) : Buf (Elt F) ((c : Thread nD τ).loc b) := V0 m c (Proc.devRef .tc b)

/-! ## The windows' blocks, the staging memrefs and the accumulator -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0_0 (t : Fin cfg0.N) : Memref sig .tc .vmem S16x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The accumulator: a whole scoped buffer of the kernel's own, passed beside the windows. -/
abbrev scM0_0 : Memref sig .tc .vmem S1x1 .f32 := Memref.whole cc0_scratch0
abbrev VS0_0 : View sig .tc .vmem S1x1 .f32 := scM0_0.view
/-- One staging buffer of the result window, through which its contents are stated. -/
abbrev VO0_4 : View sig .tc .vmem S1x1 .f32 := (Memref.whole cc0_stg4_0 : Memref sig .tc .vmem S1x1 .f32).view

/-- What the region may use and need not describe: the accumulator at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What each situation leaves -/

theorem scover0_A (c : Dev nD) (i : grid0.Coords) (arg1 : Memref sig .tc .vmem S16x256 .f32) (harg1 : arg1.IsWhole) (arg2 : Memref sig .tc .vmem S512x256 .f32) (harg2 : arg2.IsWhole) (arg3 : Memref sig .tc .vmem S16x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i) (x0 : Vec F S16x256 .f32) (x1 : Vec F S512x256 .f32) (x2 : Vec F S16x1 .i32) (x3 : Vec F S1x512 .i32) (y : S1x1.Idx) :
    ∃ pc ∈ (kernelRun0_A c i arg1 harg1 arg2 harg2 arg3 harg3 arg4 harg4 arg5 harg5 arg6 harg6 hc0 hc1 x0 x1 x2 x3).1, y ∈ pc.1.set :=
  View.cover_of_tiledL (kernelRun0_A c i arg1 harg1 arg2 harg2 arg3 harg3 arg4 harg4 arg5 harg5 arg6 harg6 hc0 hc1 x0 x1 x2 x3).1 S1x1.size (by sl_kernel_rfl) y
/-- What the first point leaves in the accumulator: its pieces read back. -/
def sout0_A (c : Dev nD) (i : grid0.Coords) (arg1 : Memref sig .tc .vmem S16x256 .f32) (harg1 : arg1.IsWhole) (arg2 : Memref sig .tc .vmem S512x256 .f32) (harg2 : arg2.IsWhole) (arg3 : Memref sig .tc .vmem S16x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i) (x0 : Vec F S16x256 .f32) (x1 : Vec F S512x256 .f32) (x2 : Vec F S16x1 .i32) (x3 : Vec F S1x512 .i32) : Vec F S1x1 .f32 :=
  VS0_0.read (Elt F) (VS0_0.writes (Elt F) VS0_0.junk (kernelRun0_A c i arg1 harg1 arg2 harg2 arg3 harg3 arg4 harg4 arg5 harg5 arg6 harg6 hc0 hc1 x0 x1 x2 x3).1)

theorem scover0_B (c : Dev nD) (i : grid0.Coords) (arg1 : Memref sig .tc .vmem S16x256 .f32) (harg1 : arg1.IsWhole) (arg2 : Memref sig .tc .vmem S512x256 .f32) (harg2 : arg2.IsWhole) (arg3 : Memref sig .tc .vmem S16x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i) (x0 : Vec F S16x256 .f32) (x1 : Vec F S512x256 .f32) (x2 : Vec F S16x1 .i32) (x3 : Vec F S1x512 .i32) (xs0 : Vec F S1x1 .f32) (y : S1x1.Idx) :
    ∃ pc ∈ (kernelRun0_B c i arg1 harg1 arg2 harg2 arg3 harg3 arg4 harg4 arg5 harg5 arg6 harg6 hc0 hc1 x0 x1 x2 x3 xs0).1, y ∈ pc.1.set :=
  View.cover_of_tiledL (kernelRun0_B c i arg1 harg1 arg2 harg2 arg3 harg3 arg4 harg4 arg5 harg5 arg6 harg6 hc0 hc1 x0 x1 x2 x3 xs0).1 S1x1.size (by sl_kernel_rfl) y
/-- What a middle point leaves in the accumulator. -/
def sout0_B (c : Dev nD) (i : grid0.Coords) (arg1 : Memref sig .tc .vmem S16x256 .f32) (harg1 : arg1.IsWhole) (arg2 : Memref sig .tc .vmem S512x256 .f32) (harg2 : arg2.IsWhole) (arg3 : Memref sig .tc .vmem S16x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i) (x0 : Vec F S16x256 .f32) (x1 : Vec F S512x256 .f32) (x2 : Vec F S16x1 .i32) (x3 : Vec F S1x512 .i32) (xs0 : Vec F S1x1 .f32) : Vec F S1x1 .f32 :=
  VS0_0.read (Elt F) (VS0_0.writes (Elt F) VS0_0.junk (kernelRun0_B c i arg1 harg1 arg2 harg2 arg3 harg3 arg4 harg4 arg5 harg5 arg6 harg6 hc0 hc1 x0 x1 x2 x3 xs0).1)

theorem cover0_C (c : Dev nD) (i : grid0.Coords) (arg1 : Memref sig .tc .vmem S16x256 .f32) (harg1 : arg1.IsWhole) (arg2 : Memref sig .tc .vmem S512x256 .f32) (harg2 : arg2.IsWhole) (arg3 : Memref sig .tc .vmem S16x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 : Vec F S16x256 .f32) (x1 : Vec F S512x256 .f32) (x2 : Vec F S16x1 .i32) (x3 : Vec F S1x512 .i32) (xs0 : Vec F S1x1 .f32) (y : S1x1.Idx) :
    ∃ pc ∈ (kernelRun0_C c i arg1 harg1 arg2 harg2 arg3 harg3 arg4 harg4 arg5 harg5 arg6 harg6 hc0 hc1 x0 x1 x2 x3 xs0).1, y ∈ pc.1.set :=
  View.cover_of_tiledL (kernelRun0_C c i arg1 harg1 arg2 harg2 arg3 harg3 arg4 harg4 arg5 harg5 arg6 harg6 hc0 hc1 x0 x1 x2 x3 xs0).1 S1x1.size (by sl_kernel_rfl) y
/-- What the last point leaves in the result's staging buffer. -/
def out0_C (c : Dev nD) (i : grid0.Coords) (arg1 : Memref sig .tc .vmem S16x256 .f32) (harg1 : arg1.IsWhole) (arg2 : Memref sig .tc .vmem S512x256 .f32) (harg2 : arg2.IsWhole) (arg3 : Memref sig .tc .vmem S16x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 : Vec F S16x256 .f32) (x1 : Vec F S512x256 .f32) (x2 : Vec F S16x1 .i32) (x3 : Vec F S1x512 .i32) (xs0 : Vec F S1x1 .f32) : Vec F S1x1 .f32 :=
  VO0_4.read (Elt F) (VO0_4.writes (Elt F) VO0_4.junk (kernelRun0_C c i arg1 harg1 arg2 harg2 arg3 harg3 arg4 harg4 arg5 harg5 arg6 harg6 hc0 hc1 x0 x1 x2 x3 xs0).1)
theorem scover0_C (c : Dev nD) (i : grid0.Coords) (arg1 : Memref sig .tc .vmem S16x256 .f32) (harg1 : arg1.IsWhole) (arg2 : Memref sig .tc .vmem S512x256 .f32) (harg2 : arg2.IsWhole) (arg3 : Memref sig .tc .vmem S16x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 : Vec F S16x256 .f32) (x1 : Vec F S512x256 .f32) (x2 : Vec F S16x1 .i32) (x3 : Vec F S1x512 .i32) (xs0 : Vec F S1x1 .f32) (y : S1x1.Idx) :
    ∃ pc ∈ (kernelRun0_C c i arg1 harg1 arg2 harg2 arg3 harg3 arg4 harg4 arg5 harg5 arg6 harg6 hc0 hc1 x0 x1 x2 x3 xs0).2.1, y ∈ pc.1.set :=
  View.cover_of_tiledL (kernelRun0_C c i arg1 harg1 arg2 harg2 arg3 harg3 arg4 harg4 arg5 harg5 arg6 harg6 hc0 hc1 x0 x1 x2 x3 xs0).2.1 S1x1.size (by sl_kernel_rfl) y
/-- What the last point leaves in the accumulator. -/
def sout0_C (c : Dev nD) (i : grid0.Coords) (arg1 : Memref sig .tc .vmem S16x256 .f32) (harg1 : arg1.IsWhole) (arg2 : Memref sig .tc .vmem S512x256 .f32) (harg2 : arg2.IsWhole) (arg3 : Memref sig .tc .vmem S16x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 : Vec F S16x256 .f32) (x1 : Vec F S512x256 .f32) (x2 : Vec F S16x1 .i32) (x3 : Vec F S1x512 .i32) (xs0 : Vec F S1x1 .f32) : Vec F S1x1 .f32 :=
  VS0_0.read (Elt F) (VS0_0.writes (Elt F) VS0_0.junk (kernelRun0_C c i arg1 harg1 arg2 harg2 arg3 harg3 arg4 harg4 arg5 harg5 arg6 harg6 hc0 hc1 x0 x1 x2 x3 xs0).2.1)

/-! ## The accumulator and the result after each point -/

/-- What the accumulator holds after the body at position `n`: at the first point what that run leaves, afterwards what
    the point's run leaves over what the point before left. -/
def accAt (c : Dev nD) : (n : ℕ) → n < cfg0.N → Vec F S1x1 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr rfl) (fun h => absurd ((hcond0_1 ⟨0, hn⟩).mp h) (show ¬(0 : ℕ) = 31 by decide)) (iblk m c 0 ⟨0, hn⟩) (iblk m c 1 ⟨0, hn⟩) (iblk m c 2 ⟨0, hn⟩) (iblk m c 3 ⟨0, hn⟩)
  | n + 1, hn =>
    if h1 : n + 1 = 31 then
      sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => Nat.succ_ne_zero n ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (accAt c n (Nat.lt_of_succ_lt hn))
    else
      sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => Nat.succ_ne_zero n ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (accAt c n (Nat.lt_of_succ_lt hn))

/-- What the result's staging buffer holds after the body at position `n`: at the last point what that run stores; at the
    others the buffer is idle and this is a placeholder nothing consults. -/
def outAt (c : Dev nD) : (n : ℕ) → n < cfg0.N → Vec F S1x1 .f32
  | 0, _ => VO0_4.read (Elt F) VO0_4.junk
  | n + 1, hn =>
    if h1 : n + 1 = 31 then
      out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => Nat.succ_ne_zero n ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (accAt m c n (Nat.lt_of_succ_lt hn))
    else VO0_4.read (Elt F) VO0_4.junk

theorem accAt_A (c : Dev nD) (t : Fin cfg0.N) (h0 : t.val = 0) :
    accAt m c t.val t.isLt = sout0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => absurd ((hcond0_1 t).mp h) (by omega)) (iblk m c 0 t) (iblk m c 1 t) (iblk m c 2 t) (iblk m c 3 t) := by
  obtain ⟨n, hn⟩ := t
  cases n with
  | zero => rfl
  | succ n => exact absurd h0 (Nat.succ_ne_zero n)

theorem accAt_B (c : Dev nD) (t : Fin cfg0.N) (h0 : ¬t.val = 0) (h1 : ¬t.val = 31) :
    accAt m c t.val t.isLt = sout0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact absurd rfl h0
  | succ n => exact (dif_neg h1).trans rfl

theorem accAt_C (c : Dev nD) (t : Fin cfg0.N) (h0 : ¬t.val = 0) (h1 : t.val = 31) :
    accAt m c t.val t.isLt = sout0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact absurd rfl h0
  | succ n => exact (dif_pos h1).trans rfl

theorem outAt_C (c : Dev nD) (t : Fin cfg0.N) (h0 : ¬t.val = 0) (h1 : t.val = 31) :
    outAt m c t.val t.isLt = out0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact absurd rfl h0
  | succ n => exact (dif_pos h1).trans rfl

/-- The region's invariant before position `n`: before the first point the accumulator at anything; afterwards at what the
    point before left in it. The generator register rides along. -/
def PhiS (c : Dev nD) : (n : ℕ) → n ≤ cfg0.N → sProp 𝕄
  | 0, _ => Pipeline.ΦA spec0 c
  | n + 1, hn => iprop(iprop(owns (c : Thread nD τ) scM0_0 fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM0_0 fullShare (accAt m c (n - 1) (by omega))) ∗ (∃ r, prngReg c r)) := by
  cases n with
  | zero => exact absurd rfl hz
  | succ n => rfl

/-! ## The pipeline's proof data -/

/-- The proof data on core `c`: the arrays as the region finds them; after the body each input's buffer at its block and
    the result's at `outAt`; the invariant `PhiS`; nothing owed. The two windows onto the first argument hold one half of
    its share each; every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t.val t.isLt := by dsimp only [dats]

/-- Each input's current staging buffer holds its block at every point, fetched there or not: unfetched, the block index
    has not moved. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' buffers hold their blocks; the point is the first, a middle one or the last, and that
    situation's run applies; the invariant hands the body the accumulator at what the point before left (at anything at
    the first point) and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val = 0
  · have h1 : ¬t.val = 31 := by omega
    rw [Dat.leavesExact_idle (dats m 0 c) 4 t (idleAt0_4 t (fun h => h1 ((hcond0_1 t).mp h))) (noFlush0_4 t (fun h => h1 ((hcond0_1 t).mp h)))]
    rw [accAt_A m c t h0]
    unfold sout0_A; (try dsimp only)
    rw [PhiS_castSucc m c t, PhiS_zero m c _ _ h0, PhiA0_eq]
    iintro ⟨⟨HS0, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0 Hg]
    · isplitl [HS0]
      · unfold owns; iexists _; isplitr
        swap; · iexact HS0
        ipureintro; exact View.read_writes_of_cover _ _ _ _ _ (scover0_A c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · by_cases h1 : t.val = 31
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [accAt_C m c t h0 h1, outAt_C m c t h0 h1]
      unfold out0_C sout0_C; (try dsimp only)
      rw [PhiS_castSucc m c t, PhiS_pos m c _ _ h0]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C c _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [accAt_B m c t h0 h1]
      unfold sout0_B; (try dsimp only)
      rw [PhiS_castSucc m c t, PhiS_pos m c _ _ h0]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
/-- The pipeline's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back: what the accumulator holds is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

end Cert.Kernel.Gen

end
-- ==== Proof.KernelRun.lean ====
/-
  The launch: every weakly fair execution of @main terminates, and what the memory holds at the end.

  @main is two reshapes of the labels, the kernel region, and a reshape of the one-element result array into the scalar
  result. Two of the region's windows read the SAME array (the first argument: once a block of 16 rows, once all of it), so
  the array's buffer is dealt to them in two halves of its share when the region is entered and the halves are joined again
  when it ends; every other array goes to its window whole. The run is the composition of the three segments.
-/
import proofs.«132789_j13967233646987_2_alg».proof.Proof.Gen.Kernel.Launch
import proofs.«132789_j13967233646987_2_alg».proof.Proof.Gen.Kernel.Skeleton
import proofs.«132789_j13967233646987_2_alg».proof.Proof.Gen.Kernel.Points
import proofs.«132789_j13967233646987_2_alg».proof.Proof.KernelData
import Idealize.ShloMosaic.Lib.Pipeline.FrameBody
import Idealize.ShloMosaic.Lib.Pipeline.Regions
import Idealize.ShloMosaic.Lib.Ring
import Idealize.ShloMosaic.Lib.Tactic
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the windows' arrays, listed. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2) ↦{fullShare} W main_v2)) := by
  unfold Pipeline.arrBufs
  exact bigSep_eq_bigSepL_of_eq [main_arg0, main_v0, main_v1, main_v2] (by decide) (by decide) _

/-- The pipeline's arrays at contents `G`, window by window: the first argument's two halves, then the three arrays held whole. -/
theorem arrays_eq5 (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2) ↦{fullShare} G 4)) := by
  unfold Dat.arrays
  rw [bigSep_W0]
  rw [(arr_whole0 0).set_eq_univ, (arr_whole0 2).set_eq_univ, (arr_whole0 3).set_eq_univ, (arr_whole0 4).set_eq_univ]
  rfl

/-- Entering the region: the first argument's buffer is split into two halves, one for each window onto it. -/
theorem arrays_entry (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs0_eq, arrays_eq5]
  iintro ⟨H0, Hv0, Hv1, Hv2⟩
  ihave H := (pointsTo_share (PosShare.mem_left_op_right fullShare)).1 $$ H0
  icases H with ⟨Hl, Hr⟩
  isplitl [Hl]; · iexact Hl
  isplitl [Hr]; · iexact Hr
  isplitl [Hv0]; · iexact Hv0
  isplitl [Hv1]; · iexact Hv1
  iexact Hv2

/-! ## The launch: @main as a host stretch, the region, a host stretch -/

abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through the first host stretch: the core's `owes` and its generator register. -/
abbrev R (c : Dev nD) : sProp 𝕄 :=
  iprop((∃ W, owes (c : Thread nD τ) (0 : CellTallies nD τ sig Unit) W) ∗ ∃ r, prngReg c r)

/-- The first host stretch: the two reshapes of the labels, over the core's unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- The result array when the region ends, as the pipeline library computes it. -/
abbrev res (c : Dev nD) : Buf (Elt F) ((c : Thread nD τ).loc main_v2) := (dats m 0 c).arrAt 4 cfg0.N

/-- The buffers when the region ends: as it found them, but for the result array. -/
def V1 (c : Dev nD) : Valuation τ sig (Elt F) := fun b =>
  if h : b = Proc.devRef .tc main_v2 then h ▸ res m c else V0 m c b

theorem V1_v2 (c : Dev nD) : V1 m c (Proc.devRef .tc main_v2) = res m c := by
  unfold V1; rw [dif_pos rfl]
theorem V1_v3 (c : Dev nD) : V1 m c (Proc.devRef .tc main_v3) = V m c main_v3 := by
  unfold V1; rw [dif_neg (StableHlo.devRef_ne_of_ne (by decide))]

/-- The two buffers the last host stretch touches: the result array and the scalar it is reshaped into. -/
abbrev S1 : Finset (DevRef τ sig) := {Proc.devRef .tc main_v2, Proc.devRef .tc main_v3}

theorem held_S1 (c : Dev nD) (W : Valuation τ sig (Elt F)) :
    (StableHlo.held (c : Thread nD τ) S1 W : sProp 𝕄)
      = iprop((((c : Thread nD τ).loc main_v2) ↦{fullShare} W (Proc.devRef .tc main_v2)) ∗ (((c : Thread nD τ).loc main_v3) ↦{fullShare} W (Proc.devRef .tc main_v3))) := by
  unfold StableHlo.held S1
  rw [BI.bigSep_insert (by rw [Finset.mem_singleton]; exact StableHlo.devRef_ne_of_ne (by decide)), BI.bigSep_singleton]
  rfl

/-- What rides beside them: the two arguments as the region found them, and the core's `owes`. -/
abbrev R1 (c : Dev nD) : sProp 𝕄 :=
  iprop((((c : Thread nD τ).loc main_arg0) ↦{fullShare} V m c main_arg0) ∗ (((c : Thread nD τ).loc main_arg1) ↦{fullShare} V m c main_arg1)
    ∗ ∃ W, owes (c : Thread nD τ) (0 : CellTallies nD τ sig Unit) W)

/-- The last host stretch: the reshape of the result array into the scalar result. -/
def seg1 : Pipeline.HostSeg (Name := ℕ) (U := UR sig nD τ) (pcfgs (F := F)) defs₀ 𝒱₀ L lv :=
  Pipeline.HostSeg.ofOps _ _ _ _ _ S1 hostOps1
    (by intro op h; (repeat (cases h with | head => exact (by rw [StableHlo.reshape_bufs]) | tail _ h => ?_)); exact nomatch h)
    (by intro _ h; (repeat (cases h with | head => rfl | tail _ h => ?_)); exact nomatch h) (V1 m) (R1 m)

-- a Launch lemma stated over `cfgs p` at the pinned configuration unifies only when unification may unfold plain definitions
set_option backward.isDefEq.respectTransparency.types false in
/-- The region. Entering, the first argument's buffer is dealt in halves to the two windows onto it, the labels' two
    reshapes and the result array go to their windows whole, the generator register enters the invariant, and the labels
    and the scalar result bypass the region; leaving, the halves are joined again. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) S1 (V1 m c) ∗ R1 m c)
  X c := iprop(∃ r, prngReg c r)
  Y c := iprop(∃ r, prngReg c r)
  Z c := iprop((((c : Thread nD τ).loc main_arg1) ↦{fullShare} V m c main_arg1) ∗ (((c : Thread nD τ).loc main_v3) ↦{fullShare} V m c main_v3))
  hentry c := by
    rw [show StableHlo.held (c : Thread nD τ) (Pipeline.ucRefs τ sig) (StableHlo.after hostOps0 (V₀ m c)) = unscopedBufs c (V m c) from (Pipeline.unscopedBufs_held c _).symm]
    rw [Pipeline.unscopedBufs_split₀ cfgs 0 winFacts₀0.arr_unscoped c (V m c), unscopedRest0_eq c (V m c)]
    iintro ⟨⟨⟨Hab, H1, H3⟩, HO, Hg⟩, -, -⟩
    ihave Ha := (arrays_entry m c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    isplitl [H1] <;> iassumption
  hin c := (show _ ⊢ Pipeline.ΦA spec0 c from by
    unfold Pipeline.ΦA; iintro ⟨Hg, -, Hr⟩; isplitl [Hr] <;> iassumption).trans (hin m c)
  hout c := (hout m c).trans (by
    rw [Pipeline.ownSems0_none]; unfold Pipeline.ΦA
    iintro ⟨Hr, Hg⟩
    isplitl [Hg]; · iexact Hg
    isplitr; · iempintro
    iexact Hr)
  hexit c := by
    rw [arrays_eq5, held_S1, V1_v2, V1_v3]
    rw [(dats m 0 c).arrAt_in 0 rfl, (dats m 0 c).arrAt_in 1 rfl]
    iintro ⟨⟨Hl, Hr, Hv0, Hv1, Hv2⟩, HO, -, H1, H3⟩
    imodintro
    isplitl [Hv2 H3]
    · isplitl [Hv2]; · iexact Hv2
      iexact H3
    isplitl [Hl Hr]
    · iapply (pointsTo_share (PosShare.mem_left_op_right fullShare)).2
      isplitl [Hl]; · iexact Hl
      iexact Hr
    isplitl [H1]; · iexact H1
    unfold Pipeline.Dat.owesAt Pipeline.owesWithin
    icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- What is left at the end: the result array and the scalar after the last reshape, and the two arguments. -/
abbrev Tₙ (c : Dev nD) : sProp 𝕄 :=
  iprop(StableHlo.held (c : Thread nD τ) S1 (StableHlo.after hostOps1 (V1 m c))
    ∗ (((c : Thread nD τ).loc main_arg0) ↦{fullShare} V m c main_arg0) ∗ (((c : Thread nD τ).loc main_arg1) ↦{fullShare} V m c main_arg1))

/-- No host operation before the region writes an argument. -/
theorem V_main_arg0 (c : Dev nD) : V m c main_arg0 = m ((c : Thread nD τ).loc main_arg0) :=
  StableHlo.after_of_forall_not_mem (b := Proc.devRef .tc main_arg0) hostOps0 (V₀ m c) (by
    intro op hop
    simp only [List.mem_cons, List.mem_nil_iff, or_false] at hop
    rcases hop with rfl | rfl <;> simp only [StableHlo.reshape_writes, Finset.mem_singleton] <;> exact StableHlo.devRef_ne_of_ne (by decide))
theorem V_main_arg1 (c : Dev nD) : V m c main_arg1 = m ((c : Thread nD τ).loc main_arg1) :=
  StableHlo.after_of_forall_not_mem (b := Proc.devRef .tc main_arg1) hostOps0 (V₀ m c) (by
    intro op hop
    simp only [List.mem_cons, List.mem_nil_iff, or_false] at hop
    rcases hop with rfl | rfl <;> simp only [StableHlo.reshape_writes, Finset.mem_singleton] <;> exact StableHlo.devRef_ne_of_ne (by decide))

-- the launch theorem's implicit arguments are found by unifying its conclusion with this one, which takes unfolding plain definitions
set_option backward.isDefEq.respectTransparency.types false in
/-- From any memory with zero counters every weakly fair execution of @main terminates without a fault; at the end the
    scalar result is the last reshape of the result array the region left, and both arguments are as launched. -/
theorem run_main : θ_run defs (onTc (τ := τ) (main (F := F))) (s₀ m ρ) (fun r => ∀ c : Dev nD,
      r.2.mem ((c.tc : Thread nD τ).loc main_v3) = StableHlo.after hostOps1 (V1 m c) (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => (show iprop(StableHlo.held (c : Thread nD τ) S1 (StableHlo.after hostOps1 (V1 m c)) ∗ R1 m c) ⊢ _ from by
      iintro ⟨Hh, H0, H1, HO⟩
      isplitr [HO]
      · isplitl [Hh]; · iexact Hh
        isplitl [H0]; · iexact H0
        iexact H1
      iexact HO)⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, Hg, -⟩, -⟩
      imodintro
      isplitl [Hh]; · iexact Hh
      isplitl [HO]; · iexists ∅; iexact HO
      iexists _; iexact Hg)
    (QY := fun c s => s.mem ((c : Thread nD τ).loc main_v3) = StableHlo.after hostOps1 (V1 m c) (Proc.devRef .tc main_v3)
      ∧ s.mem ((c : Thread nD τ).loc main_arg0) = m ((c : Thread nD τ).loc main_arg0)
      ∧ s.mem ((c : Thread nD τ).loc main_arg1) = m ((c : Thread nD τ).loc main_arg1))
    (hfin := fun c s' => by
      dsimp only [Tₙ]; rw [held_S1, V_main_arg0, V_main_arg1]
      iintro ⟨⟨⟨-, H3⟩, H0, H1⟩, HSI⟩
      icombine HSI H3 gives %h3
      icombine HSI H0 gives %h0
      icombine HSI H1 gives %h1
      imodintro
      isplitr; · ipureintro; exact ⟨Buf.eq_of_forall_mem_univ h3, Buf.eq_of_forall_mem_univ h0, Buf.eq_of_forall_mem_univ h1⟩
      iexact HSI)
    (hQ := fun _ h => h)

/-- The frame: both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Gen

end
-- ==== Proof.KernelIdealBody.lean ====
/-
  The kernel body run at one grid point, in each of the three situations the grid meets.

  The grid has 32 points, one per block of 16 rows. At every point the body loads the block's 16 rows, all 512 rows, the
  block's 16 labels and all 512 labels, and adds the block's partial loss into a one-element accumulator that lives in a
  scratch buffer from point to point. At the first point it first clears the accumulator; at the last point it
  also divides the accumulator by the row count and stores the quotient into the one-element result buffer. So there are
  three situations: the first point, a middle point, the last point. Each run below says that the body terminates without
  a fault, hands the four input buffers back as it found them, and leaves the accumulator (and, at the last point, the
  result buffer) overwritten by the pieces it stored; the pieces are found by running the body.
-/
import proofs.«132789_j13967233646987_2_alg».proof.Proof.Gen.KernelIdeal.Launch
import proofs.«132789_j13967233646987_2_alg».proof.Proof.Gen.KernelIdeal.Skeleton
import proofs.«132789_j13967233646987_2_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Whether the point is the first of the grid, as the body computes it from the coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- Whether the point is the last of the grid. -/
abbrev cond0_1 (i : grid0.Coords) : Prop := k0_cond2 i = 1#1
theorem hcond0_1 : ∀ t : Fin cfg0.N, cond0_1 (grid0.coords t) ↔ t.val = 31 :=
  (by decide +kernel : ∀ t : Fin grid0.N, cond0_1 (grid0.coords t) ↔ t.val = 31)

/-- The first four windows are inputs: live at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- The result window is stored into at the last point only: idle, and not written back, at every other point. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

set_option maxHeartbeats 1000000 in
/-- The body at the FIRST point, on whole staging memrefs: the four inputs at their contents and handed back as they were, the
    result's buffer untouched, the accumulator (at anything) left with the pieces the body stored. -/
noncomputable def kernelRun0_A (c : Dev nD) (i : grid0.Coords) (arg1 : Memref sig .tc .vmem S16x256 .f32) (harg1 : arg1.IsWhole) (arg2 : Memref sig .tc .vmem S512x256 .f32) (harg2 : arg2.IsWhole) (arg3 : Memref sig .tc .vmem S16x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S16x256 .f32) (x1 : Vec F S512x256 .f32) (x2 : Vec F S16x1 .i32) (x3 : Vec F S1x512 .i32) :
    { LS0 : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc0__triplet_kernel i arg1 harg1 arg2 harg2 arg3 harg3 arg4 harg4 arg5 harg5 arg6 harg6) K } := by
  refine ⟨?_, fun xi4 E K => ?run⟩
  case run =>
    simp only [cc0__triplet_kernel_eq_skeleton]; unfold cc0__triplet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

set_option maxHeartbeats 1000000 in
/-- The body at a point that is neither the first nor the last: as at the first, the accumulator found at what the point
    before left. -/
noncomputable def kernelRun0_B (c : Dev nD) (i : grid0.Coords) (arg1 : Memref sig .tc .vmem S16x256 .f32) (harg1 : arg1.IsWhole) (arg2 : Memref sig .tc .vmem S512x256 .f32) (harg2 : arg2.IsWhole) (arg3 : Memref sig .tc .vmem S16x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S16x256 .f32) (x1 : Vec F S512x256 .f32) (x2 : Vec F S16x1 .i32) (x3 : Vec F S1x512 .i32) (xs0 : Vec F S1x1 .f32) :
    { LS0 : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc0__triplet_kernel i arg1 harg1 arg2 harg2 arg3 harg3 arg4 harg4 arg5 harg5 arg6 harg6) K } := by
  refine ⟨?_, fun xi4 E K => ?run⟩
  case run =>
    simp only [cc0__triplet_kernel_eq_skeleton]; unfold cc0__triplet_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

set_option maxHeartbeats 1000000 in
/-- The body at the LAST point: the accumulator found at what the point before left, and the result's buffer (at
    anything) left with the piece the body stored. -/
noncomputable def kernelRun0_C (c : Dev nD) (i : grid0.Coords) (arg1 : Memref sig .tc .vmem S16x256 .f32) (harg1 : arg1.IsWhole) (arg2 : Memref sig .tc .vmem S512x256 .f32) (harg2 : arg2.IsWhole) (arg3 : Memref sig .tc .vmem S16x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S16x256 .f32) (x1 : Vec F S512x256 .f32) (x2 : Vec F S16x1 .i32) (x3 : Vec F S1x512 .i32) (xs0 : Vec F S1x1 .f32) :
    Σ' (L4 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0__triplet_kernel i arg1 harg1 arg2 harg2 arg3 harg3 arg4 harg4 arg5 harg5 arg6 harg6) K } := by
  refine ⟨?_, ?_, fun E K => ?run⟩
  case run =>
    simp only [cc0__triplet_kernel_eq_skeleton]; unfold cc0__triplet_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.KernelIdeal.Gen

end
-- ==== Proof.KernelIdealData.lean ====
/-
  The proof data of the one pipeline and the body's obligation at every grid point.

  Entering the region, the labels have been reshaped into a column and a row by two host operations; the region's five
  windows are: the block's 16 rows and all 512 rows (two windows onto the SAME array, the first argument), the block's 16
  labels, all 512 labels, and the one-element result. What the accumulator holds after each point is defined by recursion on
  the point from what the body's run leaves in it; the region's invariant carries the accumulator at that contents from
  point to point. The result's staging buffer is left alone at every point but the last, where the body stores into it
  and the pipeline writes it back.
-/
import proofs.«132789_j13967233646987_2_alg».proof.Proof.Gen.KernelIdeal.Launch
import proofs.«132789_j13967233646987_2_alg».proof.Proof.Gen.KernelIdeal.Skeleton
import proofs.«132789_j13967233646987_2_alg».proof.Proof.Gen.KernelIdeal.Points
import proofs.«132789_j13967233646987_2_alg».proof.Proof.KernelIdealBody
import Idealize.ShloMosaic.Lib.Pipeline.FrameBody
import Idealize.ShloMosaic.Lib.Pipeline.Regions
import Idealize.ShloMosaic.Lib.Ring
import Idealize.ShloMosaic.Lib.Tactic
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers as launched, as the host operations' valuation; -/
abbrev V₀ (c : Dev nD) : Valuation τ sig (Elt F) := fun b => m (c, b)
/-- and when the region is entered: the two reshapes of the labels have run. -/
abbrev V0 (c : Dev nD) : Valuation τ sig (Elt F) := StableHlo.after hostOps0 (V₀ m c)
/-- The same read at a TensorCore reference. -/
abbrev V (c : Dev nD) (b : Ref sig .tc) : Buf (Elt F) ((c : Thread nD τ).loc b) := V0 m c (Proc.devRef .tc b)

/-! ## The windows' blocks, the staging memrefs and the accumulator -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0_0 (t : Fin cfg0.N) : Memref sig .tc .vmem S16x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The accumulator: a whole scoped buffer of the kernel's own, passed beside the windows. -/
abbrev scM0_0 : Memref sig .tc .vmem S1x1 .f32 := Memref.whole cc0_scratch0
abbrev VS0_0 : View sig .tc .vmem S1x1 .f32 := scM0_0.view
/-- One staging buffer of the result window, through which its contents are stated. -/
abbrev VO0_4 : View sig .tc .vmem S1x1 .f32 := (Memref.whole cc0_stg4_0 : Memref sig .tc .vmem S1x1 .f32).view

/-- What the region may use and need not describe: the accumulator at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What each situation leaves -/

theorem scover0_A (c : Dev nD) (i : grid0.Coords) (arg1 : Memref sig .tc .vmem S16x256 .f32) (harg1 : arg1.IsWhole) (arg2 : Memref sig .tc .vmem S512x256 .f32) (harg2 : arg2.IsWhole) (arg3 : Memref sig .tc .vmem S16x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i) (x0 : Vec F S16x256 .f32) (x1 : Vec F S512x256 .f32) (x2 : Vec F S16x1 .i32) (x3 : Vec F S1x512 .i32) (y : S1x1.Idx) :
    ∃ pc ∈ (kernelRun0_A c i arg1 harg1 arg2 harg2 arg3 harg3 arg4 harg4 arg5 harg5 arg6 harg6 hc0 hc1 x0 x1 x2 x3).1, y ∈ pc.1.set :=
  View.cover_of_tiledL (kernelRun0_A c i arg1 harg1 arg2 harg2 arg3 harg3 arg4 harg4 arg5 harg5 arg6 harg6 hc0 hc1 x0 x1 x2 x3).1 S1x1.size (by sl_kernel_rfl) y
/-- What the first point leaves in the accumulator: its pieces read back. -/
def sout0_A (c : Dev nD) (i : grid0.Coords) (arg1 : Memref sig .tc .vmem S16x256 .f32) (harg1 : arg1.IsWhole) (arg2 : Memref sig .tc .vmem S512x256 .f32) (harg2 : arg2.IsWhole) (arg3 : Memref sig .tc .vmem S16x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i) (x0 : Vec F S16x256 .f32) (x1 : Vec F S512x256 .f32) (x2 : Vec F S16x1 .i32) (x3 : Vec F S1x512 .i32) : Vec F S1x1 .f32 :=
  VS0_0.read (Elt F) (VS0_0.writes (Elt F) VS0_0.junk (kernelRun0_A c i arg1 harg1 arg2 harg2 arg3 harg3 arg4 harg4 arg5 harg5 arg6 harg6 hc0 hc1 x0 x1 x2 x3).1)

theorem scover0_B (c : Dev nD) (i : grid0.Coords) (arg1 : Memref sig .tc .vmem S16x256 .f32) (harg1 : arg1.IsWhole) (arg2 : Memref sig .tc .vmem S512x256 .f32) (harg2 : arg2.IsWhole) (arg3 : Memref sig .tc .vmem S16x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i) (x0 : Vec F S16x256 .f32) (x1 : Vec F S512x256 .f32) (x2 : Vec F S16x1 .i32) (x3 : Vec F S1x512 .i32) (xs0 : Vec F S1x1 .f32) (y : S1x1.Idx) :
    ∃ pc ∈ (kernelRun0_B c i arg1 harg1 arg2 harg2 arg3 harg3 arg4 harg4 arg5 harg5 arg6 harg6 hc0 hc1 x0 x1 x2 x3 xs0).1, y ∈ pc.1.set :=
  View.cover_of_tiledL (kernelRun0_B c i arg1 harg1 arg2 harg2 arg3 harg3 arg4 harg4 arg5 harg5 arg6 harg6 hc0 hc1 x0 x1 x2 x3 xs0).1 S1x1.size (by sl_kernel_rfl) y
/-- What a middle point leaves in the accumulator. -/
def sout0_B (c : Dev nD) (i : grid0.Coords) (arg1 : Memref sig .tc .vmem S16x256 .f32) (harg1 : arg1.IsWhole) (arg2 : Memref sig .tc .vmem S512x256 .f32) (harg2 : arg2.IsWhole) (arg3 : Memref sig .tc .vmem S16x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i) (x0 : Vec F S16x256 .f32) (x1 : Vec F S512x256 .f32) (x2 : Vec F S16x1 .i32) (x3 : Vec F S1x512 .i32) (xs0 : Vec F S1x1 .f32) : Vec F S1x1 .f32 :=
  VS0_0.read (Elt F) (VS0_0.writes (Elt F) VS0_0.junk (kernelRun0_B c i arg1 harg1 arg2 harg2 arg3 harg3 arg4 harg4 arg5 harg5 arg6 harg6 hc0 hc1 x0 x1 x2 x3 xs0).1)

theorem cover0_C (c : Dev nD) (i : grid0.Coords) (arg1 : Memref sig .tc .vmem S16x256 .f32) (harg1 : arg1.IsWhole) (arg2 : Memref sig .tc .vmem S512x256 .f32) (harg2 : arg2.IsWhole) (arg3 : Memref sig .tc .vmem S16x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 : Vec F S16x256 .f32) (x1 : Vec F S512x256 .f32) (x2 : Vec F S16x1 .i32) (x3 : Vec F S1x512 .i32) (xs0 : Vec F S1x1 .f32) (y : S1x1.Idx) :
    ∃ pc ∈ (kernelRun0_C c i arg1 harg1 arg2 harg2 arg3 harg3 arg4 harg4 arg5 harg5 arg6 harg6 hc0 hc1 x0 x1 x2 x3 xs0).1, y ∈ pc.1.set :=
  View.cover_of_tiledL (kernelRun0_C c i arg1 harg1 arg2 harg2 arg3 harg3 arg4 harg4 arg5 harg5 arg6 harg6 hc0 hc1 x0 x1 x2 x3 xs0).1 S1x1.size (by sl_kernel_rfl) y
/-- What the last point leaves in the result's staging buffer. -/
def out0_C (c : Dev nD) (i : grid0.Coords) (arg1 : Memref sig .tc .vmem S16x256 .f32) (harg1 : arg1.IsWhole) (arg2 : Memref sig .tc .vmem S512x256 .f32) (harg2 : arg2.IsWhole) (arg3 : Memref sig .tc .vmem S16x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 : Vec F S16x256 .f32) (x1 : Vec F S512x256 .f32) (x2 : Vec F S16x1 .i32) (x3 : Vec F S1x512 .i32) (xs0 : Vec F S1x1 .f32) : Vec F S1x1 .f32 :=
  VO0_4.read (Elt F) (VO0_4.writes (Elt F) VO0_4.junk (kernelRun0_C c i arg1 harg1 arg2 harg2 arg3 harg3 arg4 harg4 arg5 harg5 arg6 harg6 hc0 hc1 x0 x1 x2 x3 xs0).1)
theorem scover0_C (c : Dev nD) (i : grid0.Coords) (arg1 : Memref sig .tc .vmem S16x256 .f32) (harg1 : arg1.IsWhole) (arg2 : Memref sig .tc .vmem S512x256 .f32) (harg2 : arg2.IsWhole) (arg3 : Memref sig .tc .vmem S16x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 : Vec F S16x256 .f32) (x1 : Vec F S512x256 .f32) (x2 : Vec F S16x1 .i32) (x3 : Vec F S1x512 .i32) (xs0 : Vec F S1x1 .f32) (y : S1x1.Idx) :
    ∃ pc ∈ (kernelRun0_C c i arg1 harg1 arg2 harg2 arg3 harg3 arg4 harg4 arg5 harg5 arg6 harg6 hc0 hc1 x0 x1 x2 x3 xs0).2.1, y ∈ pc.1.set :=
  View.cover_of_tiledL (kernelRun0_C c i arg1 harg1 arg2 harg2 arg3 harg3 arg4 harg4 arg5 harg5 arg6 harg6 hc0 hc1 x0 x1 x2 x3 xs0).2.1 S1x1.size (by sl_kernel_rfl) y
/-- What the last point leaves in the accumulator. -/
def sout0_C (c : Dev nD) (i : grid0.Coords) (arg1 : Memref sig .tc .vmem S16x256 .f32) (harg1 : arg1.IsWhole) (arg2 : Memref sig .tc .vmem S512x256 .f32) (harg2 : arg2.IsWhole) (arg3 : Memref sig .tc .vmem S16x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 : Vec F S16x256 .f32) (x1 : Vec F S512x256 .f32) (x2 : Vec F S16x1 .i32) (x3 : Vec F S1x512 .i32) (xs0 : Vec F S1x1 .f32) : Vec F S1x1 .f32 :=
  VS0_0.read (Elt F) (VS0_0.writes (Elt F) VS0_0.junk (kernelRun0_C c i arg1 harg1 arg2 harg2 arg3 harg3 arg4 harg4 arg5 harg5 arg6 harg6 hc0 hc1 x0 x1 x2 x3 xs0).2.1)

/-! ## The accumulator and the result after each point -/

/-- What the accumulator holds after the body at position `n`: at the first point what that run leaves, afterwards what
    the point's run leaves over what the point before left. -/
def accAt (c : Dev nD) : (n : ℕ) → n < cfg0.N → Vec F S1x1 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr rfl) (fun h => absurd ((hcond0_1 ⟨0, hn⟩).mp h) (show ¬(0 : ℕ) = 31 by decide)) (iblk m c 0 ⟨0, hn⟩) (iblk m c 1 ⟨0, hn⟩) (iblk m c 2 ⟨0, hn⟩) (iblk m c 3 ⟨0, hn⟩)
  | n + 1, hn =>
    if h1 : n + 1 = 31 then
      sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => Nat.succ_ne_zero n ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (accAt c n (Nat.lt_of_succ_lt hn))
    else
      sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => Nat.succ_ne_zero n ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (accAt c n (Nat.lt_of_succ_lt hn))

/-- What the result's staging buffer holds after the body at position `n`: at the last point what that run stores; at the
    others the buffer is idle and this is a placeholder nothing consults. -/
def outAt (c : Dev nD) : (n : ℕ) → n < cfg0.N → Vec F S1x1 .f32
  | 0, _ => VO0_4.read (Elt F) VO0_4.junk
  | n + 1, hn =>
    if h1 : n + 1 = 31 then
      out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => Nat.succ_ne_zero n ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (accAt m c n (Nat.lt_of_succ_lt hn))
    else VO0_4.read (Elt F) VO0_4.junk

theorem accAt_A (c : Dev nD) (t : Fin cfg0.N) (h0 : t.val = 0) :
    accAt m c t.val t.isLt = sout0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => absurd ((hcond0_1 t).mp h) (by omega)) (iblk m c 0 t) (iblk m c 1 t) (iblk m c 2 t) (iblk m c 3 t) := by
  obtain ⟨n, hn⟩ := t
  cases n with
  | zero => rfl
  | succ n => exact absurd h0 (Nat.succ_ne_zero n)

theorem accAt_B (c : Dev nD) (t : Fin cfg0.N) (h0 : ¬t.val = 0) (h1 : ¬t.val = 31) :
    accAt m c t.val t.isLt = sout0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact absurd rfl h0
  | succ n => exact (dif_neg h1).trans rfl

theorem accAt_C (c : Dev nD) (t : Fin cfg0.N) (h0 : ¬t.val = 0) (h1 : t.val = 31) :
    accAt m c t.val t.isLt = sout0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact absurd rfl h0
  | succ n => exact (dif_pos h1).trans rfl

theorem outAt_C (c : Dev nD) (t : Fin cfg0.N) (h0 : ¬t.val = 0) (h1 : t.val = 31) :
    outAt m c t.val t.isLt = out0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact absurd rfl h0
  | succ n => exact (dif_pos h1).trans rfl

/-- The region's invariant before position `n`: before the first point the accumulator at anything; afterwards at what the
    point before left in it. The generator register rides along. -/
def PhiS (c : Dev nD) : (n : ℕ) → n ≤ cfg0.N → sProp 𝕄
  | 0, _ => Pipeline.ΦA spec0 c
  | n + 1, hn => iprop(iprop(owns (c : Thread nD τ) scM0_0 fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM0_0 fullShare (accAt m c (n - 1) (by omega))) ∗ (∃ r, prngReg c r)) := by
  cases n with
  | zero => exact absurd rfl hz
  | succ n => rfl

/-! ## The pipeline's proof data -/

/-- The proof data on core `c`: the arrays as the region finds them; after the body each input's buffer at its block and
    the result's at `outAt`; the invariant `PhiS`; nothing owed. The two windows onto the first argument hold one half of
    its share each; every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t.val t.isLt := by dsimp only [dats]

/-- Each input's current staging buffer holds its block at every point, fetched there or not: unfetched, the block index
    has not moved. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' buffers hold their blocks; the point is the first, a middle one or the last, and that
    situation's run applies; the invariant hands the body the accumulator at what the point before left (at anything at
    the first point) and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val = 0
  · have h1 : ¬t.val = 31 := by omega
    rw [Dat.leavesExact_idle (dats m 0 c) 4 t (idleAt0_4 t (fun h => h1 ((hcond0_1 t).mp h))) (noFlush0_4 t (fun h => h1 ((hcond0_1 t).mp h)))]
    rw [accAt_A m c t h0]
    unfold sout0_A; (try dsimp only)
    rw [PhiS_castSucc m c t, PhiS_zero m c _ _ h0, PhiA0_eq]
    iintro ⟨⟨HS0, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0 Hg]
    · isplitl [HS0]
      · unfold owns; iexists _; isplitr
        swap; · iexact HS0
        ipureintro; exact View.read_writes_of_cover _ _ _ _ _ (scover0_A c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · by_cases h1 : t.val = 31
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [accAt_C m c t h0 h1, outAt_C m c t h0 h1]
      unfold out0_C sout0_C; (try dsimp only)
      rw [PhiS_castSucc m c t, PhiS_pos m c _ _ h0]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C c _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [accAt_B m c t h0 h1]
      unfold sout0_B; (try dsimp only)
      rw [PhiS_castSucc m c t, PhiS_pos m c _ _ h0]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
/-- The pipeline's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back: what the accumulator holds is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

end Cert.KernelIdeal.Gen

end
-- ==== Proof.KernelIdealRun.lean ====
/-
  The launch: every weakly fair execution of @main terminates, and what the memory holds at the end.

  @main is two reshapes of the labels, the kernel region, and a reshape of the one-element result array into the scalar
  result. Two of the region's windows read the SAME array (the first argument: once a block of 16 rows, once all of it), so
  the array's buffer is dealt to them in two halves of its share when the region is entered and the halves are joined again
  when it ends; every other array goes to its window whole. The run is the composition of the three segments.
-/
import proofs.«132789_j13967233646987_2_alg».proof.Proof.Gen.KernelIdeal.Launch
import proofs.«132789_j13967233646987_2_alg».proof.Proof.Gen.KernelIdeal.Skeleton
import proofs.«132789_j13967233646987_2_alg».proof.Proof.Gen.KernelIdeal.Points
import proofs.«132789_j13967233646987_2_alg».proof.Proof.KernelIdealData
import Idealize.ShloMosaic.Lib.Pipeline.FrameBody
import Idealize.ShloMosaic.Lib.Pipeline.Regions
import Idealize.ShloMosaic.Lib.Ring
import Idealize.ShloMosaic.Lib.Tactic
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The distinct buffers behind the windows' arrays, listed. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2) ↦{fullShare} W main_v2)) := by
  unfold Pipeline.arrBufs
  exact bigSep_eq_bigSepL_of_eq [main_arg0, main_v0, main_v1, main_v2] (by decide) (by decide) _

/-- The pipeline's arrays at contents `G`, window by window: the first argument's two halves, then the three arrays held whole. -/
theorem arrays_eq5 (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2) ↦{fullShare} G 4)) := by
  unfold Dat.arrays
  rw [bigSep_W0]
  rw [(arr_whole0 0).set_eq_univ, (arr_whole0 2).set_eq_univ, (arr_whole0 3).set_eq_univ, (arr_whole0 4).set_eq_univ]
  rfl

/-- Entering the region: the first argument's buffer is split into two halves, one for each window onto it. -/
theorem arrays_entry (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs0_eq, arrays_eq5]
  iintro ⟨H0, Hv0, Hv1, Hv2⟩
  ihave H := (pointsTo_share (PosShare.mem_left_op_right fullShare)).1 $$ H0
  icases H with ⟨Hl, Hr⟩
  isplitl [Hl]; · iexact Hl
  isplitl [Hr]; · iexact Hr
  isplitl [Hv0]; · iexact Hv0
  isplitl [Hv1]; · iexact Hv1
  iexact Hv2

/-! ## The launch: @main as a host stretch, the region, a host stretch -/

abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through the first host stretch: the core's `owes` and its generator register. -/
abbrev R (c : Dev nD) : sProp 𝕄 :=
  iprop((∃ W, owes (c : Thread nD τ) (0 : CellTallies nD τ sig Unit) W) ∗ ∃ r, prngReg c r)

/-- The first host stretch: the two reshapes of the labels, over the core's unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- The result array when the region ends, as the pipeline library computes it. -/
abbrev res (c : Dev nD) : Buf (Elt F) ((c : Thread nD τ).loc main_v2) := (dats m 0 c).arrAt 4 cfg0.N

/-- The buffers when the region ends: as it found them, but for the result array. -/
def V1 (c : Dev nD) : Valuation τ sig (Elt F) := fun b =>
  if h : b = Proc.devRef .tc main_v2 then h ▸ res m c else V0 m c b

theorem V1_v2 (c : Dev nD) : V1 m c (Proc.devRef .tc main_v2) = res m c := by
  unfold V1; rw [dif_pos rfl]
theorem V1_v3 (c : Dev nD) : V1 m c (Proc.devRef .tc main_v3) = V m c main_v3 := by
  unfold V1; rw [dif_neg (StableHlo.devRef_ne_of_ne (by decide))]

/-- The two buffers the last host stretch touches: the result array and the scalar it is reshaped into. -/
abbrev S1 : Finset (DevRef τ sig) := {Proc.devRef .tc main_v2, Proc.devRef .tc main_v3}

theorem held_S1 (c : Dev nD) (W : Valuation τ sig (Elt F)) :
    (StableHlo.held (c : Thread nD τ) S1 W : sProp 𝕄)
      = iprop((((c : Thread nD τ).loc main_v2) ↦{fullShare} W (Proc.devRef .tc main_v2)) ∗ (((c : Thread nD τ).loc main_v3) ↦{fullShare} W (Proc.devRef .tc main_v3))) := by
  unfold StableHlo.held S1
  rw [BI.bigSep_insert (by rw [Finset.mem_singleton]; exact StableHlo.devRef_ne_of_ne (by decide)), BI.bigSep_singleton]
  rfl

/-- What rides beside them: the two arguments as the region found them, and the core's `owes`. -/
abbrev R1 (c : Dev nD) : sProp 𝕄 :=
  iprop((((c : Thread nD τ).loc main_arg0) ↦{fullShare} V m c main_arg0) ∗ (((c : Thread nD τ).loc main_arg1) ↦{fullShare} V m c main_arg1)
    ∗ ∃ W, owes (c : Thread nD τ) (0 : CellTallies nD τ sig Unit) W)

/-- The last host stretch: the reshape of the result array into the scalar result. -/
def seg1 : Pipeline.HostSeg (Name := ℕ) (U := UR sig nD τ) (pcfgs (F := F)) defs₀ 𝒱₀ L lv :=
  Pipeline.HostSeg.ofOps _ _ _ _ _ S1 hostOps1
    (by intro op h; (repeat (cases h with | head => exact (by rw [StableHlo.reshape_bufs]) | tail _ h => ?_)); exact nomatch h)
    (by intro _ h; (repeat (cases h with | head => rfl | tail _ h => ?_)); exact nomatch h) (V1 m) (R1 m)

-- a Launch lemma stated over `cfgs p` at the pinned configuration unifies only when unification may unfold plain definitions
set_option backward.isDefEq.respectTransparency.types false in
/-- The region. Entering, the first argument's buffer is dealt in halves to the two windows onto it, the labels' two
    reshapes and the result array go to their windows whole, the generator register enters the invariant, and the labels
    and the scalar result bypass the region; leaving, the halves are joined again. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) S1 (V1 m c) ∗ R1 m c)
  X c := iprop(∃ r, prngReg c r)
  Y c := iprop(∃ r, prngReg c r)
  Z c := iprop((((c : Thread nD τ).loc main_arg1) ↦{fullShare} V m c main_arg1) ∗ (((c : Thread nD τ).loc main_v3) ↦{fullShare} V m c main_v3))
  hentry c := by
    rw [show StableHlo.held (c : Thread nD τ) (Pipeline.ucRefs τ sig) (StableHlo.after hostOps0 (V₀ m c)) = unscopedBufs c (V m c) from (Pipeline.unscopedBufs_held c _).symm]
    rw [Pipeline.unscopedBufs_split₀ cfgs 0 winFacts₀0.arr_unscoped c (V m c), unscopedRest0_eq c (V m c)]
    iintro ⟨⟨⟨Hab, H1, H3⟩, HO, Hg⟩, -, -⟩
    ihave Ha := (arrays_entry m c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    isplitl [H1] <;> iassumption
  hin c := (show _ ⊢ Pipeline.ΦA spec0 c from by
    unfold Pipeline.ΦA; iintro ⟨Hg, -, Hr⟩; isplitl [Hr] <;> iassumption).trans (hin m c)
  hout c := (hout m c).trans (by
    rw [Pipeline.ownSems0_none]; unfold Pipeline.ΦA
    iintro ⟨Hr, Hg⟩
    isplitl [Hg]; · iexact Hg
    isplitr; · iempintro
    iexact Hr)
  hexit c := by
    rw [arrays_eq5, held_S1, V1_v2, V1_v3]
    rw [(dats m 0 c).arrAt_in 0 rfl, (dats m 0 c).arrAt_in 1 rfl]
    iintro ⟨⟨Hl, Hr, Hv0, Hv1, Hv2⟩, HO, -, H1, H3⟩
    imodintro
    isplitl [Hv2 H3]
    · isplitl [Hv2]; · iexact Hv2
      iexact H3
    isplitl [Hl Hr]
    · iapply (pointsTo_share (PosShare.mem_left_op_right fullShare)).2
      isplitl [Hl]; · iexact Hl
      iexact Hr
    isplitl [H1]; · iexact H1
    unfold Pipeline.Dat.owesAt Pipeline.owesWithin
    icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- What is left at the end: the result array and the scalar after the last reshape, and the two arguments. -/
abbrev Tₙ (c : Dev nD) : sProp 𝕄 :=
  iprop(StableHlo.held (c : Thread nD τ) S1 (StableHlo.after hostOps1 (V1 m c))
    ∗ (((c : Thread nD τ).loc main_arg0) ↦{fullShare} V m c main_arg0) ∗ (((c : Thread nD τ).loc main_arg1) ↦{fullShare} V m c main_arg1))

/-- No host operation before the region writes an argument. -/
theorem V_main_arg0 (c : Dev nD) : V m c main_arg0 = m ((c : Thread nD τ).loc main_arg0) :=
  StableHlo.after_of_forall_not_mem (b := Proc.devRef .tc main_arg0) hostOps0 (V₀ m c) (by
    intro op hop
    simp only [List.mem_cons, List.mem_nil_iff, or_false] at hop
    rcases hop with rfl | rfl <;> simp only [StableHlo.reshape_writes, Finset.mem_singleton] <;> exact StableHlo.devRef_ne_of_ne (by decide))
theorem V_main_arg1 (c : Dev nD) : V m c main_arg1 = m ((c : Thread nD τ).loc main_arg1) :=
  StableHlo.after_of_forall_not_mem (b := Proc.devRef .tc main_arg1) hostOps0 (V₀ m c) (by
    intro op hop
    simp only [List.mem_cons, List.mem_nil_iff, or_false] at hop
    rcases hop with rfl | rfl <;> simp only [StableHlo.reshape_writes, Finset.mem_singleton] <;> exact StableHlo.devRef_ne_of_ne (by decide))

-- the launch theorem's implicit arguments are found by unifying its conclusion with this one, which takes unfolding plain definitions
set_option backward.isDefEq.respectTransparency.types false in
/-- From any memory with zero counters every weakly fair execution of @main terminates without a fault; at the end the
    scalar result is the last reshape of the result array the region left, and both arguments are as launched. -/
theorem run_main : θ_run defs (onTc (τ := τ) (main (F := F))) (s₀ m ρ) (fun r => ∀ c : Dev nD,
      r.2.mem ((c.tc : Thread nD τ).loc main_v3) = StableHlo.after hostOps1 (V1 m c) (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => (show iprop(StableHlo.held (c : Thread nD τ) S1 (StableHlo.after hostOps1 (V1 m c)) ∗ R1 m c) ⊢ _ from by
      iintro ⟨Hh, H0, H1, HO⟩
      isplitr [HO]
      · isplitl [Hh]; · iexact Hh
        isplitl [H0]; · iexact H0
        iexact H1
      iexact HO)⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, Hg, -⟩, -⟩
      imodintro
      isplitl [Hh]; · iexact Hh
      isplitl [HO]; · iexists ∅; iexact HO
      iexists _; iexact Hg)
    (QY := fun c s => s.mem ((c : Thread nD τ).loc main_v3) = StableHlo.after hostOps1 (V1 m c) (Proc.devRef .tc main_v3)
      ∧ s.mem ((c : Thread nD τ).loc main_arg0) = m ((c : Thread nD τ).loc main_arg0)
      ∧ s.mem ((c : Thread nD τ).loc main_arg1) = m ((c : Thread nD τ).loc main_arg1))
    (hfin := fun c s' => by
      dsimp only [Tₙ]; rw [held_S1, V_main_arg0, V_main_arg1]
      iintro ⟨⟨⟨-, H3⟩, H0, H1⟩, HSI⟩
      icombine HSI H3 gives %h3
      icombine HSI H0 gives %h0
      icombine HSI H1 gives %h1
      imodintro
      isplitr; · ipureintro; exact ⟨Buf.eq_of_forall_mem_univ h3, Buf.eq_of_forall_mem_univ h0, Buf.eq_of_forall_mem_univ h1⟩
      iexact HSI)
    (hQ := fun _ h => h)

/-- The frame: both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Gen

end
-- ==== Proof.Spec.lean ====
/-
  The quantity both programs compute, as ONE function of the two argument arrays.

  For a matrix `x` of 512 rows of 256 extended reals and 512 integer labels `t`:
  the distance of two rows is the mean of the absolute differences of their entries,
  `dist i j = (∑ k, |x i k - x j k|) / 256`; row `i`'s hardest positive is the greatest distance to a
  row of the same label (the maximum taken from `⊥`, rows of another label counting as `⊥`), its hardest negative
  the least distance to a row of another label (the minimum taken from `⊤`, rows of the same label counting as `⊤`);
  the row's loss is `max (hardest positive - hardest negative + margin) 0`, and the result is the mean of the 512
  row losses. The three float literals stay as their words: the same word stands on both sides and is never evaluated.
-/
import Idealize.ShloMosaic.PureOps.Ideal
import Idealize.ShloMosaic.Lib.ValueIdx

noncomputable section

namespace Cert.TripletSpec

open Idealize.ShloMosaic Idealize.ShloMosaic.ValueIdx

/-- The divisor of a row distance: the row length 256, as the float word both programs divide by. -/
def c256 : EReal := Ideal.ofBits .f32 0x43800000#32
/-- The divisor of the final mean: the row count 512, as the float word both programs divide by. -/
def c512 : EReal := Ideal.ofBits .f32 0x44000000#32
/-- The margin, as the float word both programs add. -/
def margin : EReal := Ideal.ofBits .f32 0x3E99999A#32

/-- The mean absolute difference of rows `i` and `j`. -/
def dist (x : (⟨2, ![512, 256]⟩ : Shape).Idx → EReal) (i j : Fin 512) : EReal :=
  Ideal.div (∑ k : Fin 256, max (x (ix2 i k) - x (ix2 j k)) (-(x (ix2 i k) - x (ix2 j k)))) c256

/-- Row `i`'s greatest distance to a row of its own label. -/
def hardPos (x : (⟨2, ![512, 256]⟩ : Shape).Idx → EReal) (t : (⟨1, ![512]⟩ : Shape).Idx → BitVec 32) (i : Fin 512) : EReal :=
  (Finset.univ : Finset (Fin 512)).fold max ⊥ fun j => if t (ix1 i) = t (ix1 j) then dist x i j else ⊥

/-- Row `i`'s least distance to a row of another label. -/
def hardNeg (x : (⟨2, ![512, 256]⟩ : Shape).Idx → EReal) (t : (⟨1, ![512]⟩ : Shape).Idx → BitVec 32) (i : Fin 512) : EReal :=
  (Finset.univ : Finset (Fin 512)).fold min ⊤ fun j => if t (ix1 i) = t (ix1 j) then ⊤ else dist x i j

/-- Row `i`'s margin loss. -/
def rowLoss (x : (⟨2, ![512, 256]⟩ : Shape).Idx → EReal) (t : (⟨1, ![512]⟩ : Shape).Idx → BitVec 32) (i : Fin 512) : EReal :=
  max (hardPos x t i - hardNeg x t i + margin) 0

/-- The mean of the row losses. -/
def loss (x : (⟨2, ![512, 256]⟩ : Shape).Idx → EReal) (t : (⟨1, ![512]⟩ : Shape).Idx → BitVec 32) : EReal :=
  Ideal.div (∑ i : Fin 512, rowLoss x t i) c512

/-- The sum of the losses of the sixteen rows of block `b`. -/
def blockLoss (x : (⟨2, ![512, 256]⟩ : Shape).Idx → EReal) (t : (⟨1, ![512]⟩ : Shape).Idx → BitVec 32) (b : Fin 32) : EReal :=
  ∑ r : Fin 16, rowLoss x t ⟨b.val * 16 + r.val, by have := b.isLt; have := r.isLt; omega⟩

/-- The losses of the first `n` blocks, added block by block from zero. -/
def accLoss (x : (⟨2, ![512, 256]⟩ : Shape).Idx → EReal) (t : (⟨1, ![512]⟩ : Shape).Idx → BitVec 32) : (n : ℕ) → n ≤ 32 → EReal
  | 0, _ => 0
  | n + 1, h => accLoss x t n (Nat.le_of_succ_le h) + blockLoss x t ⟨n, h⟩

end Cert.TripletSpec

end
-- ==== Proof.KernelLoss.lean ====
/-
  The kernel body's arithmetic, read at an index.

  The body of the kernel computes, for block `b` of sixteen rows, the sum of the sixteen rows' margin losses; it adds
  that to a running total, and at the last block divides the total by the row count. Each of these pure values is shown
  here to be the corresponding term of the specification, on the extended reals.
-/
import proofs.«132789_j13967233646987_2_alg».proof.Proof.Spec
import proofs.«132789_j13967233646987_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelLoss

open Idealize.ShloMosaic Idealize.ShloMosaic.ValueIdx Cert.KernelIdeal Cert.KernelIdeal.Gen

/-! ## The running total, the final division and the starting value -/

/-- The running total after a block: the total before it plus the block's sum. -/
theorem pay1_eq (v35 : FVec Ideal S1x1 .f32) (v36 : Vec Ideal S1x1 .f32) :
    k0_pay1 (F := Ideal) v35 v36 = fun i => v36 i + v35 i := by
  unfold k0_pay1
  exact shapeCast_self _ _

/-- The final value: the total divided by the row count. -/
theorem pay2_eq (v44 : Vec Ideal S1x1 .f32) :
    k0_pay2 (F := Ideal) v44 = fun i => Ideal.div (v44 i) Cert.TripletSpec.c512 := by
  unfold k0_pay2
  rfl

/-- The total starts from zero. -/
theorem pay3_eq : k0_pay3 (F := Ideal) = fun _ => (0 : EReal) := by
  unfold k0_pay3
  refine (shapeCast_self _ _).trans ?_
  funext i
  exact Ideal.ofBits_zero_f32

/-! ## The layout operations of the body, read at coordinates -/

section Layout
variable {α : Type}

/-- The sixteen rows viewed with a unit middle axis: entry `(r, 0, k)` is entry `(r, k)`. -/
theorem cast_rows (v : S16x256.Idx → α) (h : S16x256.ShapeCasts S16x1x256) (r : Fin 16) (u : Fin 1) (k : Fin 256) :
    shapeCast S16x1x256 v h (ix3 r u k) = v (ix2 r k) :=
  shapeCast_apply v h _ _ (by
    have hu : u.val = 0 := by omega
    rw [Shape.rowMajor_val_three, Shape.rowMajor_val_two]
    show r.val * 256 + k.val = (r.val * 1 + u.val) * 256 + k.val
    rw [hu, Nat.mul_one, Nat.add_zero])

/-- All rows viewed with a unit leading axis: entry `(0, j, k)` is entry `(j, k)`. -/
theorem cast_all (v : S512x256.Idx → α) (h : S512x256.ShapeCasts S1x512x256) (u : Fin 1) (j : Fin 512) (k : Fin 256) :
    shapeCast S1x512x256 v h (ix3 u j k) = v (ix2 j k) :=
  shapeCast_ab_1ab_apply v h u j k

/-- The block's rows repeated along the middle axis. -/
theorem bcast_rows (v : S16x1x256.Idx → α) (h : S16x1x256.Broadcasts S16x512x256) (r : Fin 16) (j : Fin 512) (k : Fin 256) :
    broadcastTo S16x512x256 v h (ix3 r j k) = v (ix3 r (0 : Fin 1) k) := by
  refine broadcastTo_apply v h (ix3 r j k) (ix3 r (0 : Fin 1) k) fun ax => ?_
  match ax with
  | ⟨0, _⟩ => rfl
  | ⟨1, _⟩ => rfl
  | ⟨2, _⟩ => rfl

/-- All rows repeated along the leading axis. -/
theorem bcast_all (v : S1x512x256.Idx → α) (h : S1x512x256.Broadcasts S16x512x256) (r : Fin 16) (j : Fin 512) (k : Fin 256) :
    broadcastTo S16x512x256 v h (ix3 r j k) = v (ix3 (0 : Fin 1) j k) := by
  refine broadcastTo_apply v h (ix3 r j k) (ix3 (0 : Fin 1) j k) fun ax => ?_
  match ax with
  | ⟨0, _⟩ => rfl
  | ⟨1, _⟩ => rfl
  | ⟨2, _⟩ => rfl

/-- A column of sixteen repeated along the second axis. -/
theorem bcast_col (v : S16x1.Idx → α) (h : S16x1.Broadcasts S16x512) (r : Fin 16) (j : Fin 512) :
    broadcastTo S16x512 v h (ix2 r j) = v (ix2 r (0 : Fin 1)) := by
  refine broadcastTo_apply v h (ix2 r j) (ix2 r (0 : Fin 1)) fun ax => ?_
  match ax with
  | ⟨0, _⟩ => rfl
  | ⟨1, _⟩ => rfl

/-- A row of 512 repeated along the first axis. -/
theorem bcast_row (v : S1x512.Idx → α) (h : S1x512.Broadcasts S16x512) (r : Fin 16) (j : Fin 512) :
    broadcastTo S16x512 v h (ix2 r j) = v (ix2 (0 : Fin 1) j) :=
  broadcastTo_1b_ab_apply v h r j

/-- A vector of sixteen viewed as a column. -/
theorem cast_col (v : S16.Idx → α) (h : S16.ShapeCasts S16x1) (r : Fin 16) (u : Fin 1) :
    shapeCast S16x1 v h (ix2 r u) = v (ix1 r) :=
  shapeCast_apply v h _ _ (by
    have hu : u.val = 0 := by omega
    rw [Shape.rowMajor_val_one, Shape.rowMajor_val_two]
    show r.val = r.val * 1 + u.val
    rw [hu, Nat.mul_one, Nat.add_zero])

/-- A one-entry vector viewed as a one-by-one matrix. -/
theorem cast_one (v : S1.Idx → α) (h : S1.ShapeCasts S1x1) (a b : Fin 1) :
    shapeCast S1x1 v h (ix2 a b) = v (ix1 (0 : Fin 1)) :=
  shapeCast_apply v h _ _ (by
    have h0 : a.val = 0 := by omega
    have h1 : b.val = 0 := by omega
    rw [Shape.rowMajor_val_one, Shape.rowMajor_val_two]
    show 0 = a.val * 1 + b.val
    rw [h0, h1])

end Layout

/-! ## The three reductions of the body, read at coordinates -/

/-- The index above `(r, j)` with lane `k` inserted is `(r, j, k)`. -/
theorem lift_lane (h : S16x512x256.Reduces [2] S16x512) (r : Fin 16) (j : Fin 512) (k : Fin 256) :
    h.lift (ix2 r j) k = ix3 r j k := by
  funext c
  apply Fin.ext
  match c with
  | ⟨0, _⟩ => rfl
  | ⟨1, _⟩ => rfl
  | ⟨2, _⟩ => rfl

/-- The index above `r` with column `j` inserted is `(r, j)`. -/
theorem lift_col (h : S16x512.Reduces [1] S16) (r : Fin 16) (j : Fin 512) :
    h.lift (ix1 r) j = ix2 r j := by
  funext c
  apply Fin.ext
  match c with
  | ⟨0, _⟩ => rfl
  | ⟨1, _⟩ => rfl

/-- The index above the one entry with row `r` inserted is `(r, 0)`. -/
theorem lift_row (h : S16x1.Reduces [0] S1) (u : Fin 1) (r : Fin 16) :
    h.lift (ix1 u) r = ix2 r u := by
  funext c
  apply Fin.ext
  match c with
  | ⟨0, _⟩ => rfl
  | ⟨1, _⟩ => rfl

/-- The lane sum at `(r, j)` is the sum over the 256 lanes. -/
theorem sum_lanes (src : FVec Ideal S16x512x256 .f32) (h : S16x512x256.Reduces [2] S16x512) (hφ : FKind.Formats .f32)
    (hacc : (0x00000000#32 : BitVec 32) = FKind.add.neutral .f32 hφ) (r : Fin 16) (j : Fin 512) :
    multiReduction .add [2] S16x512 src 0x00000000#32 h hφ hacc (ix2 r j) = ∑ k : Fin 256, src (ix3 r j k) := by
  refine (Ideal.multiReduction_add_single src _ h hφ hacc (ix2 r j)).trans ?_
  exact Finset.sum_congr rfl fun k _ => congrArg src (lift_lane h r j k)

/-- The sum over the sixteen rows of a column. -/
theorem sum_rows (src : FVec Ideal S16x1 .f32) (h : S16x1.Reduces [0] S1) (hφ : FKind.Formats .f32)
    (hacc : (0x00000000#32 : BitVec 32) = FKind.add.neutral .f32 hφ) (u : Fin 1) :
    multiReduction .add [0] S1 src 0x00000000#32 h hφ hacc (ix1 u) = ∑ r : Fin 16, src (ix2 r u) := by
  refine (Ideal.multiReduction_add_single src _ h hφ hacc (ix1 u)).trans ?_
  exact Finset.sum_congr rfl fun r _ => congrArg src (lift_row h u r)

/-- The word the maximum starts from is `⊥`. -/
theorem neg_inf_word : Ideal.ofBits .f32 0xFF800000#32 = ⊥ := by
  simp [Ideal.ofBits, Ideal.ieee]

/-- The word the minimum starts from is `⊤`. -/
theorem pos_inf_word : Ideal.ofBits .f32 0x7F800000#32 = ⊤ := by
  simp [Ideal.ofBits, Ideal.ieee]

/-- The maximum over the 512 columns of row `r`, taken from `⊥`. -/
theorem max_cols (src : FVec Ideal S16x512 .f32) (h : S16x512.Reduces [1] S16) (hφ : FKind.Formats .f32)
    (hacc : (0xFF800000#32 : BitVec 32) = FKind.maximumf.neutral .f32 hφ) (r : Fin 16) :
    multiReduction .maximumf [1] S16 src 0xFF800000#32 h hφ hacc (ix1 r)
      = (Finset.univ : Finset (Fin 512)).fold max ⊥ fun j => src (ix2 r j) := by
  refine (Ideal.multiReduction_maximumf_single src _ h hφ hacc (ix1 r)).trans ?_
  have e : (src ∘ h.lift (ix1 r)) = fun j : Fin 512 => src (ix2 r j) :=
    funext fun j => congrArg src (lift_col h r j)
  show (Finset.univ : Finset (Fin 512)).fold max (Ideal.ofBits .f32 0xFF800000#32) (src ∘ h.lift (ix1 r)) = _
  rw [e, neg_inf_word]
  rfl

/-- The minimum over the 512 columns of row `r`, taken from `⊤`. -/
theorem min_cols (src : FVec Ideal S16x512 .f32) (h : S16x512.Reduces [1] S16) (hφ : FKind.Formats .f32)
    (hacc : (0x7F800000#32 : BitVec 32) = FKind.minimumf.neutral .f32 hφ) (r : Fin 16) :
    multiReduction .minimumf [1] S16 src 0x7F800000#32 h hφ hacc (ix1 r)
      = (Finset.univ : Finset (Fin 512)).fold min ⊤ fun j => src (ix2 r j) := by
  refine (multiReduction_minimumf_eq_fold src _ h hφ hacc (ix1 r)).trans ?_
  refine (h.fold_filter_drop_single _ _ src (ix1 r)).trans ?_
  have e : (src ∘ h.lift (ix1 r)) = fun j : Fin 512 => src (ix2 r j) :=
    funext fun j => congrArg src (lift_col h r j)
  show (Finset.univ : Finset (Fin 512)).fold min (Ideal.ofBits .f32 0x7F800000#32) (src ∘ h.lift (ix1 r)) = _
  rw [e, pos_inf_word]
  rfl

/-! ## The named constants and the label test -/

/-- The mask value of the maximum denotes `⊥`. -/
theorem neg_big : Named.named (F := Ideal) κ "neg_big" (φ := .f32) 0xFF61B1E6#32 = ⊥ :=
  IdealRules.named_const.ideal_named_scalar _ _ _ _ rfl

/-- The mask value of the minimum denotes `⊤`. -/
theorem pos_big : Named.named (F := Ideal) κ "pos_big" (φ := .f32) 0x7F61B1E6#32 = ⊤ :=
  IdealRules.named_const.ideal_named_scalar _ _ _ _ rfl

/-- Selecting on the equality test of two labels is the case split on their equality. -/
theorem select_same (a b : BitVec 32) (p q : EReal) :
    Scalar.select (IntOp.cmpi .eq a b) p q = if a = b then p else q := by
  unfold Scalar.select IntOp.cmpi
  by_cases h : a = b
  · subst h; simp
  · have hb : (a == b) = false := beq_eq_false_iff_ne.mpr h
    simp [h, hb]

/-! ## The body's intermediate values, each read at coordinates -/

/-- The absolute differences of the block's rows against all rows, lane by lane. -/
def absDiff (v3 : Vec Ideal S16x256 .f32) (v4 : Vec Ideal S512x256 .f32) : FVec Ideal S16x512x256 .f32 :=
  absf (subf (broadcastTo S16x512x256 (shapeCast S16x1x256 v3 shapeCasts_S16x256_S16x1x256) broadcasts_S16x1x256_S16x512x256)
    (broadcastTo S16x512x256 (shapeCast S1x512x256 v4 shapeCasts_S512x256_S1x512x256) broadcasts_S1x512x256_S16x512x256))

theorem absDiff_apply (v3 : Vec Ideal S16x256 .f32) (v4 : Vec Ideal S512x256 .f32) (r : Fin 16) (j : Fin 512) (k : Fin 256) :
    absDiff v3 v4 (ix3 r j k) = max (v3 (ix2 r k) - v4 (ix2 j k)) (-(v3 (ix2 r k) - v4 (ix2 j k))) := by
  have e1 := (bcast_rows _ broadcasts_S16x1x256_S16x512x256 r j k).trans (cast_rows v3 shapeCasts_S16x256_S16x1x256 r 0 k)
  have e2 := (bcast_all _ broadcasts_S1x512x256_S16x512x256 r j k).trans (cast_all v4 shapeCasts_S512x256_S1x512x256 0 j k)
  show max (_ - _) (-(_ - _)) = _
  rw [e1, e2]

/-- The mean absolute differences: the lane sums divided by the row length. -/
def distK (v3 : Vec Ideal S16x256 .f32) (v4 : Vec Ideal S512x256 .f32) : FVec Ideal S16x512 .f32 :=
  divf (multiReduction .add [2] S16x512 (absDiff v3 v4) 0x00000000#32 reduces_S16x512x256_S16x512 (.inl rfl) rfl)
    (broadcast S16x512 (Scalar.ofBits .f32 0x43800000#32))

theorem distK_apply (v3 : Vec Ideal S16x256 .f32) (v4 : Vec Ideal S512x256 .f32) (r : Fin 16) (j : Fin 512) :
    distK v3 v4 (ix2 r j)
      = Ideal.div (∑ k : Fin 256, max (v3 (ix2 r k) - v4 (ix2 j k)) (-(v3 (ix2 r k) - v4 (ix2 j k)))) Cert.TripletSpec.c256 := by
  refine congrArg (fun s => Ideal.div s Cert.TripletSpec.c256) ?_
  refine (sum_lanes _ _ _ _ r j).trans ?_
  exact Finset.sum_congr rfl fun k _ => absDiff_apply v3 v4 r j k

/-- The label test: row `r` of the block against row `j`. -/
def sameLabel (v14 : Vec Ideal S16x1 .i32) (v16 : Vec Ideal S1x512 .i32) : IVec S16x512 1 :=
  cmpi .eq (broadcastTo S16x512 (shapeCast S16x1 v14 shapeCasts_S16x1_S16x1) broadcasts_S16x1_S16x512)
    (broadcastTo S16x512 (shapeCast S1x512 v16 shapeCasts_S1x512_S1x512) broadcasts_S1x512_S16x512)

theorem sameLabel_apply (v14 : Vec Ideal S16x1 .i32) (v16 : Vec Ideal S1x512 .i32) (r : Fin 16) (j : Fin 512) :
    sameLabel v14 v16 (ix2 r j) = IntOp.cmpi .eq (v14 (ix2 r (0 : Fin 1))) (v16 (ix2 (0 : Fin 1) j)) := by
  unfold sameLabel
  rw [shapeCast_self, shapeCast_self]
  show IntOp.cmpi .eq (broadcastTo S16x512 v14 _ (ix2 r j)) (broadcastTo S16x512 v16 _ (ix2 r j)) = _
  rw [bcast_col, bcast_row]

/-- Each block row's greatest masked distance. -/
def hardPosK (d : FVec Ideal S16x512 .f32) (m : IVec S16x512 1) : FVec Ideal S16 .f32 :=
  multiReduction .maximumf [1] S16
    (select m d (broadcast S16x512 (Named.named (F := Ideal) κ "neg_big" (φ := .f32) 0xFF61B1E6#32)))
    0xFF800000#32 reduces_S16x512_S16 (.inl rfl) rfl

theorem hardPosK_apply (d : FVec Ideal S16x512 .f32) (m : IVec S16x512 1) (r : Fin 16) :
    hardPosK d m (ix1 r)
      = (Finset.univ : Finset (Fin 512)).fold max ⊥ fun j => Scalar.select (m (ix2 r j)) (d (ix2 r j)) ⊥ := by
  refine (max_cols _ _ _ _ r).trans ?_
  refine congrArg (fun f => (Finset.univ : Finset (Fin 512)).fold max ⊥ f) (funext fun j => ?_)
  show Scalar.select (m (ix2 r j)) (d (ix2 r j)) (Named.named (F := Ideal) κ "neg_big" (φ := .f32) 0xFF61B1E6#32) = _
  rw [neg_big]

/-- Each block row's least masked distance. -/
def hardNegK (d : FVec Ideal S16x512 .f32) (m : IVec S16x512 1) : FVec Ideal S16 .f32 :=
  multiReduction .minimumf [1] S16
    (select m (broadcast S16x512 (Named.named (F := Ideal) κ "pos_big" (φ := .f32) 0x7F61B1E6#32)) d)
    0x7F800000#32 reduces_S16x512_S16 (.inl rfl) rfl

theorem hardNegK_apply (d : FVec Ideal S16x512 .f32) (m : IVec S16x512 1) (r : Fin 16) :
    hardNegK d m (ix1 r)
      = (Finset.univ : Finset (Fin 512)).fold min ⊤ fun j => Scalar.select (m (ix2 r j)) ⊤ (d (ix2 r j)) := by
  refine (min_cols _ _ _ _ r).trans ?_
  refine congrArg (fun f => (Finset.univ : Finset (Fin 512)).fold min ⊤ f) (funext fun j => ?_)
  show Scalar.select (m (ix2 r j)) (Named.named (F := Ideal) κ "pos_big" (φ := .f32) 0x7F61B1E6#32) (d (ix2 r j)) = _
  rw [pos_big]

/-- Each block row's margin loss, as a column. -/
def rowLossK (hp hn : FVec Ideal S16 .f32) : FVec Ideal S16x1 .f32 :=
  maximumf
    (addf (subf (shapeCast S16x1 hp shapeCasts_S16_S16x1) (shapeCast S16x1 hn shapeCasts_S16_S16x1))
      (broadcast S16x1 (Scalar.ofBits .f32 0x3E99999A#32)))
    (broadcast S16x1 (Scalar.ofBits .f32 0x00000000#32))

theorem rowLossK_apply (hp hn : FVec Ideal S16 .f32) (r : Fin 16) (u : Fin 1) :
    rowLossK hp hn (ix2 r u) = max (hp (ix1 r) - hn (ix1 r) + Cert.TripletSpec.margin) 0 := by
  have e1 := cast_col hp shapeCasts_S16_S16x1 r u
  have e2 := cast_col hn shapeCasts_S16_S16x1 r u
  show max (_ - _ + Ideal.ofBits .f32 0x3E99999A#32) (Ideal.ofBits .f32 0x00000000#32) = _
  rw [e1, e2, Ideal.ofBits_zero_f32]
  rfl

/-- The sum of the sixteen row losses, as a one-by-one matrix. -/
def blockSumK (row : FVec Ideal S16x1 .f32) : FVec Ideal S1x1 .f32 :=
  shapeCast S1x1 (multiReduction .add [0] S1 row 0x00000000#32 reduces_S16x1_S1 (.inl rfl) rfl) shapeCasts_S1_S1x1

theorem blockSumK_apply (row : FVec Ideal S16x1 .f32) (i : S1x1.Idx) :
    blockSumK row i = ∑ r : Fin 16, row (ix2 r (0 : Fin 1)) := by
  obtain ⟨a, b, rfl⟩ : ∃ (a b : Fin 1), i = ix2 a b := ⟨i 0, i 1, eq_ix2 i⟩
  exact (cast_one _ shapeCasts_S1_S1x1 a b).trans (sum_rows _ _ _ _ 0)

/-- The body's block value is the composition of the values above. -/
theorem pay4_unfold (v3 : Vec Ideal S16x256 .f32) (v4 : Vec Ideal S512x256 .f32) (v14 : Vec Ideal S16x1 .i32)
    (v16 : Vec Ideal S1x512 .i32) :
    k0_pay4 (F := Ideal) v3 v4 v14 v16
      = blockSumK (rowLossK (hardPosK (distK v3 v4) (sameLabel v14 v16)) (hardNegK (distK v3 v4) (sameLabel v14 v16))) :=
  rfl

/-! ## The block value is the specification's block loss -/

/-- Fed the sixteen rows of block `b` and their labels, beside all rows and all labels, the body's block value is the
    sum of the sixteen rows' margin losses. -/
theorem pay4_eq (x : S512x256.Idx → EReal) (t : S512.Idx → BitVec 32) (b : Fin 32)
    (v3 : Vec Ideal S16x256 .f32) (v4 : Vec Ideal S512x256 .f32) (v14 : Vec Ideal S16x1 .i32) (v16 : Vec Ideal S1x512 .i32)
    (h3 : ∀ (r : Fin 16) (k : Fin 256),
      v3 (ix2 r k) = x (ix2 (⟨b.val * 16 + r.val, by have := b.isLt; have := r.isLt; omega⟩ : Fin 512) k))
    (h4 : v4 = x)
    (h14 : ∀ r : Fin 16,
      v14 (ix2 r (0 : Fin 1)) = t (ix1 (⟨b.val * 16 + r.val, by have := b.isLt; have := r.isLt; omega⟩ : Fin 512)))
    (h16 : ∀ j : Fin 512, v16 (ix2 (0 : Fin 1) j) = t (ix1 j)) :
    k0_pay4 (F := Ideal) v3 v4 v14 v16 = fun _ => Cert.TripletSpec.blockLoss x t b := by
  rw [pay4_unfold]
  funext i
  rw [blockSumK_apply]
  unfold Cert.TripletSpec.blockLoss
  refine Finset.sum_congr rfl fun r _ => ?_
  rw [rowLossK_apply, hardPosK_apply, hardNegK_apply]
  unfold Cert.TripletSpec.rowLoss Cert.TripletSpec.hardPos Cert.TripletSpec.hardNeg
  have hd : ∀ j : Fin 512, distK v3 v4 (ix2 r j)
      = Cert.TripletSpec.dist x (⟨b.val * 16 + r.val, by have := b.isLt; have := r.isLt; omega⟩ : Fin 512) j := by
    intro j
    rw [distK_apply]
    unfold Cert.TripletSpec.dist
    subst h4
    simp only [h3]
  have hm : ∀ j : Fin 512, sameLabel v14 v16 (ix2 r j)
      = IntOp.cmpi .eq (t (ix1 (⟨b.val * 16 + r.val, by have := b.isLt; have := r.isLt; omega⟩ : Fin 512))) (t (ix1 j)) := by
    intro j
    rw [sameLabel_apply, h14, h16]
  simp only [hd, hm, select_same]

end Cert.KernelLoss

end
-- ==== Proof.KernelValue.lean ====
/-
  The values the kernel's run leaves: the accumulator after each grid point and the result after the last.

  Each situation's run (first point, middle point, last point) left a list of stored pieces; read back, each is one of the
  body's pure values applied to the loaded blocks. With the block's value known to be the block's loss, the accumulator
  after the point at position `n` holds the losses of the first `n + 1` blocks added block by block from zero, and the
  result buffer after the last point holds that total over all 32 blocks divided by the row count.
-/
import proofs.«132789_j13967233646987_2_alg».proof.Proof.KernelIdealData
import proofs.«132789_j13967233646987_2_alg».proof.Proof.KernelLoss
import proofs.«132789_j13967233646987_2_alg».proof.Proof.Spec
import Idealize.ShloMosaic.Lib.Pipeline.Value
import Idealize.ShloMosaic.Lib.Tactic

set_option maxRecDepth 16384

noncomputable section

namespace Cert.KernelValue

open Idealize.ShloMosaic Idealize.ShloMosaic.TcCoe Idealize.ShloMosaic.Tactic Idealize.ShloMosaic.ValueIdx
open Idealize.SL.Sem
open Cert.KernelIdeal Cert.KernelIdeal.Gen

/-! ## What each situation's run stored, as the body's pure values -/

section Pieces
variable {F : FTy → Type} [FloatOps F] [Named F]

/-- The offsets of a whole-buffer access are all zero. -/
theorem hz : (![0, 0] : Fin 2 → Nat) = fun _ => 0 := funext fun a => by fin_cases a <;> rfl

/-- At the first point the accumulator is cleared, read back, and left at the cleared value plus the block's sum. -/
theorem sout_A (c : Dev nD) (i : grid0.Coords) (arg1 : Memref sig .tc .vmem S16x256 .f32) (harg1 : arg1.IsWhole) (arg2 : Memref sig .tc .vmem S512x256 .f32) (harg2 : arg2.IsWhole) (arg3 : Memref sig .tc .vmem S16x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i) (x0 : Vec F S16x256 .f32) (x1 : Vec F S512x256 .f32) (x2 : Vec F S16x1 .i32) (x3 : Vec F S1x512 .i32) :
    sout0_A c i arg1 harg1 arg2 harg2 arg3 harg3 arg4 harg4 arg5 harg5 arg6 harg6 hc0 hc1 x0 x1 x2 x3 = k0_pay1 (k0_pay4 x0 x1 x2 x3) (k0_pay3 (F := F)) := by
  unfold sout0_A
  rw [View.read_writes_eq_canon _ _ _ (scover0_A c i arg1 harg1 arg2 harg2 arg3 harg3 arg4 harg4 arg5 harg5 arg6 harg6 hc0 hc1 x0 x1 x2 x3)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread,
    View.ld_unit_zero (S := S16x256) hz, View.ld_unit_zero (S := S512x256) hz, View.ld_unit_zero (S := S16x1) hz,
    View.ld_unit_zero (S := S1x512) hz]

/-- At a middle point the accumulator is left at what it held plus the block's sum. -/
theorem sout_B (c : Dev nD) (i : grid0.Coords) (arg1 : Memref sig .tc .vmem S16x256 .f32) (harg1 : arg1.IsWhole) (arg2 : Memref sig .tc .vmem S512x256 .f32) (harg2 : arg2.IsWhole) (arg3 : Memref sig .tc .vmem S16x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i) (x0 : Vec F S16x256 .f32) (x1 : Vec F S512x256 .f32) (x2 : Vec F S16x1 .i32) (x3 : Vec F S1x512 .i32) (xs0 : Vec F S1x1 .f32) :
    sout0_B c i arg1 harg1 arg2 harg2 arg3 harg3 arg4 harg4 arg5 harg5 arg6 harg6 hc0 hc1 x0 x1 x2 x3 xs0 = k0_pay1 (k0_pay4 x0 x1 x2 x3) xs0 := by
  unfold sout0_B
  rw [View.read_writes_eq_canon _ _ _ (scover0_B c i arg1 harg1 arg2 harg2 arg3 harg3 arg4 harg4 arg5 harg5 arg6 harg6 hc0 hc1 x0 x1 x2 x3 xs0)]
  unfold kernelRun0_B
  dsimp only
  sl_unfold_words
  rw [View.canon_unit_zero (S := S1x1) hz]
  simp only [View.readAt_eq_ld, harg1.read_unread, harg2.read_unread, harg3.read_unread, harg4.read_unread, harg6.read_unread,
    View.ld_unit_zero (S := S16x256) hz, View.ld_unit_zero (S := S512x256) hz, View.ld_unit_zero (S := S16x1) hz,
    View.ld_unit_zero (S := S1x512) hz, View.ld_unit_zero (S := S1x1) hz]

/-- At the last point the accumulator is left likewise, -/
theorem sout_C (c : Dev nD) (i : grid0.Coords) (arg1 : Memref sig .tc .vmem S16x256 .f32) (harg1 : arg1.IsWhole) (arg2 : Memref sig .tc .vmem S512x256 .f32) (harg2 : arg2.IsWhole) (arg3 : Memref sig .tc .vmem S16x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 : Vec F S16x256 .f32) (x1 : Vec F S512x256 .f32) (x2 : Vec F S16x1 .i32) (x3 : Vec F S1x512 .i32) (xs0 : Vec F S1x1 .f32) :
    sout0_C c i arg1 harg1 arg2 harg2 arg3 harg3 arg4 harg4 arg5 harg5 arg6 harg6 hc0 hc1 x0 x1 x2 x3 xs0 = k0_pay1 (k0_pay4 x0 x1 x2 x3) xs0 := by
  unfold sout0_C
  rw [View.read_writes_eq_canon _ _ _ (scover0_C c i arg1 harg1 arg2 harg2 arg3 harg3 arg4 harg4 arg5 harg5 arg6 harg6 hc0 hc1 x0 x1 x2 x3 xs0)]
  unfold kernelRun0_C
  dsimp only
  sl_unfold_words
  rw [View.canon_unit_zero (S := S1x1) hz]
  simp only [View.readAt_eq_ld, harg1.read_unread, harg2.read_unread, harg3.read_unread, harg4.read_unread, harg6.read_unread,
    View.ld_unit_zero (S := S16x256) hz, View.ld_unit_zero (S := S512x256) hz, View.ld_unit_zero (S := S16x1) hz,
    View.ld_unit_zero (S := S1x512) hz, View.ld_unit_zero (S := S1x1) hz]

/-- and the result buffer holds that total divided by the row count. -/
theorem out_C (c : Dev nD) (i : grid0.Coords) (arg1 : Memref sig .tc .vmem S16x256 .f32) (harg1 : arg1.IsWhole) (arg2 : Memref sig .tc .vmem S512x256 .f32) (harg2 : arg2.IsWhole) (arg3 : Memref sig .tc .vmem S16x1 .i32) (harg3 : arg3.IsWhole) (arg4 : Memref sig .tc .vmem S1x512 .i32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i) (x0 : Vec F S16x256 .f32) (x1 : Vec F S512x256 .f32) (x2 : Vec F S16x1 .i32) (x3 : Vec F S1x512 .i32) (xs0 : Vec F S1x1 .f32) :
    out0_C c i arg1 harg1 arg2 harg2 arg3 harg3 arg4 harg4 arg5 harg5 arg6 harg6 hc0 hc1 x0 x1 x2 x3 xs0 = k0_pay2 (k0_pay1 (k0_pay4 x0 x1 x2 x3) xs0) := by
  unfold out0_C
  rw [View.read_writes_eq_canon _ _ _ (cover0_C c i arg1 harg1 arg2 harg2 arg3 harg3 arg4 harg4 arg5 harg5 arg6 harg6 hc0 hc1 x0 x1 x2 x3 xs0)]
  unfold kernelRun0_C
  dsimp only
  sl_unfold_words
  rw [View.canon_unit_zero (S := S1x1) hz, View.readCov_unit_zero (S := S1x1) _ hz]
  simp only [View.readAt_eq_ld, harg1.read_unread, harg2.read_unread, harg3.read_unread, harg4.read_unread, harg6.read_unread,
    View.ld_unit_zero (S := S16x256) hz, View.ld_unit_zero (S := S512x256) hz, View.ld_unit_zero (S := S16x1) hz,
    View.ld_unit_zero (S := S1x512) hz, View.ld_unit_zero (S := S1x1) hz]

end Pieces

/-! ## The accumulator after each point, and the result after the last -/

section Totals

variable (m : (ℓ : Loc nD τ sig) → Buf (Elt Ideal) ℓ) (c : Dev nD)
  (x : S512x256.Idx → EReal) (t : S512.Idx → BitVec 32)

/-- One point's step on the extended reals: the accumulator's value plus the block's loss. -/
theorem step_eq (b : Fin 32) (v3 : Vec Ideal S16x256 .f32) (v4 : Vec Ideal S512x256 .f32) (v14 : Vec Ideal S16x1 .i32)
    (v16 : Vec Ideal S1x512 .i32)
    (h3 : ∀ (r : Fin 16) (k : Fin 256),
      v3 (ix2 r k) = x (ix2 (⟨b.val * 16 + r.val, by have := b.isLt; have := r.isLt; omega⟩ : Fin 512) k))
    (h4 : v4 = x)
    (h14 : ∀ r : Fin 16,
      v14 (ix2 r (0 : Fin 1)) = t (ix1 (⟨b.val * 16 + r.val, by have := b.isLt; have := r.isLt; omega⟩ : Fin 512)))
    (h16 : ∀ j : Fin 512, v16 (ix2 (0 : Fin 1) j) = t (ix1 j))
    (acc : Vec Ideal S1x1 .f32) (a : EReal) (hacc : acc = fun _ => a) :
    k0_pay1 (F := Ideal) (k0_pay4 (F := Ideal) v3 v4 v14 v16) acc = fun _ => a + Cert.TripletSpec.blockLoss x t b := by
  rw [Cert.KernelLoss.pay1_eq, Cert.KernelLoss.pay4_eq x t b v3 v4 v14 v16 h3 h4 h14 h16, hacc]

/-- After the point at position `n` the accumulator holds the losses of the first `n + 1` blocks, added block by block
    from zero: by induction on the position, each point adding its block's loss to what the point before left. -/
theorem accAt_eq
    (hb0 : ∀ (tt : Fin cfg0.N) (r : Fin 16) (k : Fin 256), (iblk m c 0 tt : Vec Ideal S16x256 .f32) (ix2 r k)
      = x (ix2 (⟨tt.val * 16 + r.val, by have := tt.isLt; have hN : cfg0.N = 32 := N_0; have := r.isLt; omega⟩ : Fin 512) k))
    (hb1 : ∀ tt : Fin cfg0.N, (iblk m c 1 tt : Vec Ideal S512x256 .f32) = x)
    (hb2 : ∀ (tt : Fin cfg0.N) (r : Fin 16), (iblk m c 2 tt : Vec Ideal S16x1 .i32) (ix2 r (0 : Fin 1))
      = t (ix1 (⟨tt.val * 16 + r.val, by have := tt.isLt; have hN : cfg0.N = 32 := N_0; have := r.isLt; omega⟩ : Fin 512)))
    (hb3 : ∀ (tt : Fin cfg0.N) (j : Fin 512), (iblk m c 3 tt : Vec Ideal S1x512 .i32) (ix2 (0 : Fin 1) j) = t (ix1 j)) :
    ∀ (n : ℕ) (hn : n < cfg0.N), accAt (F := Ideal) m c n hn
      = fun _ => Cert.TripletSpec.accLoss x t (n + 1) (Nat.succ_le_of_lt (lt_of_lt_of_eq hn N_0))
  | 0, hn => by
    refine (accAt_A m c ⟨0, hn⟩ rfl).trans ?_
    refine (sout_A ..).trans ?_
    refine (step_eq x t ⟨0, by decide⟩ (iblk m c 0 ⟨0, hn⟩) (iblk m c 1 ⟨0, hn⟩) (iblk m c 2 ⟨0, hn⟩) (iblk m c 3 ⟨0, hn⟩)
      (hb0 ⟨0, hn⟩) (hb1 ⟨0, hn⟩) (hb2 ⟨0, hn⟩) (hb3 ⟨0, hn⟩) _ 0 Cert.KernelLoss.pay3_eq).trans ?_
    rfl
  | n + 1, hn => by
    have ih := accAt_eq hb0 hb1 hb2 hb3 n (Nat.lt_of_succ_lt hn)
    have hlt : n + 1 < 32 := lt_of_lt_of_eq hn N_0
    by_cases h1 : n + 1 = 31
    · refine (accAt_C m c ⟨n + 1, hn⟩ (Nat.succ_ne_zero n) h1).trans ?_
      refine (sout_C ..).trans ?_
      refine (step_eq x t ⟨n + 1, hlt⟩ (iblk m c 0 ⟨n + 1, hn⟩) (iblk m c 1 ⟨n + 1, hn⟩) (iblk m c 2 ⟨n + 1, hn⟩)
        (iblk m c 3 ⟨n + 1, hn⟩) (hb0 ⟨n + 1, hn⟩) (hb1 ⟨n + 1, hn⟩) (hb2 ⟨n + 1, hn⟩) (hb3 ⟨n + 1, hn⟩) _ _ ih).trans ?_
      rfl
    · refine (accAt_B m c ⟨n + 1, hn⟩ (Nat.succ_ne_zero n) h1).trans ?_
      refine (sout_B ..).trans ?_
      refine (step_eq x t ⟨n + 1, hlt⟩ (iblk m c 0 ⟨n + 1, hn⟩) (iblk m c 1 ⟨n + 1, hn⟩) (iblk m c 2 ⟨n + 1, hn⟩)
        (iblk m c 3 ⟨n + 1, hn⟩) (hb0 ⟨n + 1, hn⟩) (hb1 ⟨n + 1, hn⟩) (hb2 ⟨n + 1, hn⟩) (hb3 ⟨n + 1, hn⟩) _ _ ih).trans ?_
      rfl

/-- After the last point the result buffer holds the losses of all 32 blocks, added block by block from zero, divided by
    the row count. -/
theorem outAt_eq
    (hb0 : ∀ (tt : Fin cfg0.N) (r : Fin 16) (k : Fin 256), (iblk m c 0 tt : Vec Ideal S16x256 .f32) (ix2 r k)
      = x (ix2 (⟨tt.val * 16 + r.val, by have := tt.isLt; have hN : cfg0.N = 32 := N_0; have := r.isLt; omega⟩ : Fin 512) k))
    (hb1 : ∀ tt : Fin cfg0.N, (iblk m c 1 tt : Vec Ideal S512x256 .f32) = x)
    (hb2 : ∀ (tt : Fin cfg0.N) (r : Fin 16), (iblk m c 2 tt : Vec Ideal S16x1 .i32) (ix2 r (0 : Fin 1))
      = t (ix1 (⟨tt.val * 16 + r.val, by have := tt.isLt; have hN : cfg0.N = 32 := N_0; have := r.isLt; omega⟩ : Fin 512)))
    (hb3 : ∀ (tt : Fin cfg0.N) (j : Fin 512), (iblk m c 3 tt : Vec Ideal S1x512 .i32) (ix2 (0 : Fin 1) j) = t (ix1 j))
    (h : 31 < cfg0.N) :
    outAt (F := Ideal) m c 31 h
      = fun _ => Ideal.div (Cert.TripletSpec.accLoss x t 32 le_rfl) Cert.TripletSpec.c512 := by
  have ih := accAt_eq m c x t hb0 hb1 hb2 hb3 30 (Nat.lt_of_succ_lt h)
  refine (outAt_C m c ⟨31, h⟩ (show ¬(31 : ℕ) = 0 by decide) rfl).trans ?_
  refine (out_C ..).trans ?_
  refine (Cert.KernelLoss.pay2_eq _).trans ?_
  refine funext fun i => congrArg (fun s => Ideal.div s Cert.TripletSpec.c512) ?_
  refine (congrFun (step_eq x t ⟨31, by decide⟩ (iblk m c 0 ⟨31, h⟩) (iblk m c 1 ⟨31, h⟩) (iblk m c 2 ⟨31, h⟩)
    (iblk m c 3 ⟨31, h⟩) (hb0 ⟨31, h⟩) (hb1 ⟨31, h⟩) (hb2 ⟨31, h⟩) (hb3 ⟨31, h⟩) _ _ ih) i).trans ?_
  rfl

end Totals

end Cert.KernelValue

end
-- ==== Proof.BlockReads.lean ====
/-
  What the kernel's region finds in its arrays, and what each window's block holds at a grid point.

  Before the region two host operations reshape the 512 labels into a column and a row; neither writes an
  argument, so the region finds the two arguments as launched, the column's entry (i, 0) and the row's entry
  (0, j) being labels i and j. A window's block at grid point tt holds the entries of its array whose coordinate on
  each axis is (block index at tt) × (block extent) + (coordinate inside the block): rows 16 tt … 16 tt + 15 for the
  two blocked windows, the whole array for the two whole ones.
-/
import proofs.«132789_j13967233646987_2_alg».proof.Proof.KernelIdealData
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.BlockReads

open Cert.KernelIdeal Cert.KernelIdeal.Gen
open Idealize.ShloMosaic Idealize.ShloMosaic.TcCoe Idealize.SL.Sem Idealize.ShloMosaic.ValueIdx

variable {F : FTy → Type} [FloatOps F] [Named F]
variable (m : (ℓ : Loc nD τ sig) → Buf (Elt F) ℓ)

/-! ## The host operations before the region -/

/-- Neither reshape writes a buffer other than the column and the row. -/
theorem not_written (b : Ref sig .tc) (hb : b ≠ main_v0 ∧ b ≠ main_v1) :
    ∀ op ∈ (hostOps0 (F := F)), Proc.devRef .tc b ∉ op.writes := by
  obtain ⟨h0, h1⟩ := hb
  intro op hop
  simp only [List.mem_cons, List.mem_nil_iff, or_false] at hop
  rcases hop with rfl | rfl <;>
    simp only [StableHlo.reshape_writes, Finset.mem_singleton] <;>
    exact StableHlo.devRef_ne_of_ne ‹_›

/-- The region finds the matrix as launched, -/
theorem V_arg0 (c : Dev nD) : V m c main_arg0 = m ((c.tc : Thread nD τ).loc main_arg0) :=
  StableHlo.after_of_forall_not_mem (b := Proc.devRef .tc main_arg0) hostOps0 (V₀ m c) (not_written main_arg0 (by decide))

/-- and the labels as launched. -/
theorem V_arg1 (c : Dev nD) : V m c main_arg1 = m ((c.tc : Thread nD τ).loc main_arg1) :=
  StableHlo.after_of_forall_not_mem (b := Proc.devRef .tc main_arg1) hostOps0 (V₀ m c) (not_written main_arg1 (by decide))

/-- The column is the labels cast to 512 × 1, -/
theorem V_v0 (c : Dev nD) :
    (V m c main_v0 : S512x1.Idx → BitVec 32)
      = shapeCast S512x1 (m ((c.tc : Thread nD τ).loc main_arg1) : S512.Idx → BitVec 32) shapeCasts_S512_S512x1 := by
  dsimp only [V, V0, hostOps0]
  after_results
  rfl

/-- and the row the labels cast to 1 × 512. -/
theorem V_v1 (c : Dev nD) :
    (V m c main_v1 : S1x512.Idx → BitVec 32)
      = shapeCast S1x512 (m ((c.tc : Thread nD τ).loc main_arg1) : S512.Idx → BitVec 32) shapeCasts_S512_S1x512 := by
  dsimp only [V, V0, hostOps0]
  after_results
  rfl

/-- A vector cast to a column reads, at `(i, u)`, its entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Entry `(i, 0)` of the column is label `i`. -/
theorem V_v0_apply (c : Dev nD) (i : Fin 512) (u : Fin 1) :
    (V m c main_v0 : S512x1.Idx → BitVec 32) (ix2 i u)
      = (m ((c.tc : Thread nD τ).loc main_arg1) : S512.Idx → BitVec 32) (ix1 i) := by
  rw [V_v0]; exact shapeCast_a_a1_apply _ _ i u

/-- Entry `(0, j)` of the row is label `j`. -/
theorem V_v1_apply (c : Dev nD) (u : Fin 1) (j : Fin 512) :
    (V m c main_v1 : S1x512.Idx → BitVec 32) (ix2 u j)
      = (m ((c.tc : Thread nD τ).loc main_arg1) : S512.Idx → BitVec 32) (ix1 j) := by
  rw [V_v1]; exact shapeCast_a_1a_apply _ _ u j

/-! ## The windows' blocks -/

/-- The windows' block indices at every grid point, decided once over the grid: the two blocked windows are at block
    row `tt`, the two whole ones at the origin. -/
theorem idx_facts : ∀ tt : Fin cfg0.N,
    win0_0.index tt (0 : Fin 2) = tt.val ∧ win0_0.index tt (1 : Fin 2) = 0
    ∧ win0_1.index tt (0 : Fin 2) = 0 ∧ win0_1.index tt (1 : Fin 2) = 0
    ∧ win0_2.index tt (0 : Fin 2) = tt.val ∧ win0_2.index tt (1 : Fin 2) = 0
    ∧ win0_3.index tt (0 : Fin 2) = 0 ∧ win0_3.index tt (1 : Fin 2) = 0 :=
  (by decide +kernel : ∀ tt : Fin grid0.N, _)

theorem row_lt (tt : Fin cfg0.N) (r : Fin 16) : tt.val * 16 + r.val < 512 := by
  have h1 : tt.val < 32 := lt_of_lt_of_eq tt.isLt (show cfg0.N = 32 from N_0)
  have h2 := r.isLt
  omega

/-- The first window's block at `tt` holds rows `16 tt … 16 tt + 15` of the matrix. -/
theorem iblk0_apply (c : Dev nD) (tt : Fin cfg0.N) (r : Fin 16) (k : Fin 256) :
    (iblk m c 0 tt : S16x256.Idx → Elt F .f32) (ix2 r k)
      = (m ((c.tc : Thread nD τ).loc main_arg0) : S512x256.Idx → Elt F .f32) (ix2 ⟨tt.val * 16 + r.val, row_lt tt r⟩ k) := by
  obtain ⟨e00, e01, e10, e11, e20, e21, e30, e31⟩ := idx_facts tt
  rw [← V_arg0 m c]
  show V m c main_arg0 (((cfg0.win 0).blk tt).view.emb (ix2 r k)) = V m c main_arg0 (ix2 ⟨tt.val * 16 + r.val, row_lt tt r⟩ k)
  refine congrArg (V m c main_arg0) (funext fun a => Fin.ext ?_)
  match a with
  | ⟨0, _⟩ => show win0_0.index tt (0 : Fin 2) * 16 + 1 * r.val = tt.val * 16 + r.val; omega
  | ⟨1, _⟩ => show win0_0.index tt (1 : Fin 2) * 256 + 1 * k.val = k.val; omega

/-- The second window's block is the whole matrix at every point. -/
theorem iblk1_apply (c : Dev nD) (tt : Fin cfg0.N) (i : S512x256.Idx) :
    (iblk m c 1 tt : S512x256.Idx → Elt F .f32) i
      = (m ((c.tc : Thread nD τ).loc main_arg0) : S512x256.Idx → Elt F .f32) i := by
  obtain ⟨e00, e01, e10, e11, e20, e21, e30, e31⟩ := idx_facts tt
  rw [← V_arg0 m c]
  show V m c main_arg0 (((cfg0.win 1).blk tt).view.emb i) = V m c main_arg0 i
  refine congrArg (V m c main_arg0) (funext fun a => Fin.ext ?_)
  match a with
  | ⟨0, _⟩ => show win0_1.index tt (0 : Fin 2) * 512 + 1 * (i 0).val = (i 0).val; omega
  | ⟨1, _⟩ => show win0_1.index tt (1 : Fin 2) * 256 + 1 * (i 1).val = (i 1).val; omega

theorem iblk1_eq (c : Dev nD) (tt : Fin cfg0.N) :
    (iblk m c 1 tt : S512x256.Idx → Elt F .f32) = (m ((c.tc : Thread nD τ).loc main_arg0) : S512x256.Idx → Elt F .f32) :=
  funext fun i => iblk1_apply m c tt i

/-- The third window's block at `tt` holds the labels of rows `16 tt … 16 tt + 15`. -/
theorem iblk2_apply (c : Dev nD) (tt : Fin cfg0.N) (r : Fin 16) (u : Fin 1) :
    (iblk m c 2 tt : S16x1.Idx → BitVec 32) (ix2 r u)
      = (m ((c.tc : Thread nD τ).loc main_arg1) : S512.Idx → BitVec 32) (ix1 ⟨tt.val * 16 + r.val, row_lt tt r⟩) := by
  obtain ⟨e00, e01, e10, e11, e20, e21, e30, e31⟩ := idx_facts tt
  rw [← V_v0_apply m c ⟨tt.val * 16 + r.val, row_lt tt r⟩ u]
  show V m c main_v0 (((cfg0.win 2).blk tt).view.emb (ix2 r u)) = V m c main_v0 (ix2 ⟨tt.val * 16 + r.val, row_lt tt r⟩ u)
  refine congrArg (V m c main_v0) (funext fun a => Fin.ext ?_)
  match a with
  | ⟨0, _⟩ => show win0_2.index tt (0 : Fin 2) * 16 + 1 * r.val = tt.val * 16 + r.val; omega
  | ⟨1, _⟩ => show win0_2.index tt (1 : Fin 2) * 1 + 1 * u.val = u.val; omega

/-- The fourth window's block is the whole row of labels at every point. -/
theorem iblk3_apply (c : Dev nD) (tt : Fin cfg0.N) (u : Fin 1) (j : Fin 512) :
    (iblk m c 3 tt : S1x512.Idx → BitVec 32) (ix2 u j)
      = (m ((c.tc : Thread nD τ).loc main_arg1) : S512.Idx → BitVec 32) (ix1 j) := by
  obtain ⟨e00, e01, e10, e11, e20, e21, e30, e31⟩ := idx_facts tt
  rw [← V_v1_apply m c u j]
  show V m c main_v1 (((cfg0.win 3).blk tt).view.emb (ix2 u j)) = V m c main_v1 (ix2 u j)
  refine congrArg (V m c main_v1) (funext fun a => Fin.ext ?_)
  match a with
  | ⟨0, _⟩ => show win0_3.index tt (0 : Fin 2) * 1 + 1 * u.val = u.val; omega
  | ⟨1, _⟩ => show win0_3.index tt (1 : Fin 2) * 512 + 1 * j.val = j.val; omega

end Cert.BlockReads

end
-- ==== Proof.RefLoss.lean ====
/-
  The reference program's result is the mean of the row losses, and that mean is the block sums added one
  after the other.

  Part one reads the reference's composed term index by index: the two broadcasts of the matrix put row i and
  row j side by side, the sum over the last axis divided by the row length is the distance of the two rows, the
  label comparison selects it or the infinite filler, the reduction over the second axis is the fold of max (min)
  from the filler over all rows j, and the last sum runs over all 512 rows.

  Part two is finite-sum bookkeeping: a sum over 512 rows is the sum over 32 consecutive blocks of sixteen rows,
  accumulated from zero. Only commutativity and associativity of addition on the extended reals are used.
-/
import proofs.«132789_j13967233646987_2_alg».proof.Proof.Spec
import proofs.«132789_j13967233646987_2_alg».proof.Proof.Gen.ReferenceIdeal.Read
import Idealize.ShloMosaic.Lib.ValueIdx
import Idealize.ShloMosaic.Lib.Pipeline.Value
import Idealize.ShloMosaic.PureOps.Ideal.Laws
import Idealize.ShloMosaic.PureOps.Reduce

noncomputable section

namespace Cert.RefLoss

open Cert.ReferenceIdeal Cert.ReferenceIdeal.Gen Cert.ReferenceIdeal.Read Cert.TripletSpec
open Idealize.ShloMosaic Idealize.ShloMosaic.ValueIdx

/-! ## The reference's stages read at an index -/

section Read

variable (x : S512x256.Idx → EReal) (t : S512.Idx → BitVec 32)

theorem word_neg_inf : Ideal.ofBits .f32 0xFF800000#32 = (⊥ : EReal) := by simp [Ideal.ofBits, Ideal.ieee]
theorem word_pos_inf : Ideal.ofBits .f32 0x7F800000#32 = (⊤ : EReal) := by simp [Ideal.ofBits, Ideal.ieee]

/-- A selection on an equality test of two words is a case split on their equality. -/
theorem select_cmpi_eq {α : Type} (a b : BitVec 32) (u v : α) :
    Scalar.select (IntOp.cmpi .eq a b) u v = if a = b then u else v := by
  unfold Scalar.select
  by_cases h : a = b
  · rw [if_pos h, if_pos]; exact IntOp.cmpi_eq.2 h
  · rw [if_neg h, if_neg]; exact fun hh => h (IntOp.cmpi_eq.1 hh)

/-- The two broadcasts put entry `k` of row `i` beside entry `k` of row `j`. -/
theorem idx_left (i j : Fin 512) (k : Fin 256) :
    idx_main_v0 (idx_main_v2 (idx_main_v6 (ix2 i j) k)) = ix2 i k :=
  funext fun a => Fin.ext (by match a with | ⟨0, _⟩ => rfl | ⟨1, _⟩ => rfl)

theorem idx_right (i j : Fin 512) (k : Fin 256) :
    idx_main_v1 (idx_main_v3 (idx_main_v6 (ix2 i j) k)) = ix2 j k :=
  funext fun a => Fin.ext (by match a with | ⟨0, _⟩ => rfl | ⟨1, _⟩ => rfl)

theorem idx_label_left (i j : Fin 512) : idx_main_v9 (idx_main_v11 (ix2 i j)) = ix1 i :=
  funext fun a => Fin.ext (by match a with | ⟨0, _⟩ => rfl)

theorem idx_label_right (i j : Fin 512) : idx_main_v10 (idx_main_v12 (ix2 i j)) = ix1 j :=
  funext fun a => Fin.ext (by match a with | ⟨0, _⟩ => rfl)

/-- The divided sum over the last axis is the distance of rows `i` and `j`. -/
theorem dist_read (i j : Fin 512) : val_main_v8 (F := Ideal) x (ix2 i j) = dist x i j := by
  rw [val_main_v8_apply, val_main_v6_apply, val_main_v7_apply, val_main_cst_0_apply, val_main_cst_apply]
  simp only [val_main_v5_apply, val_main_v4_apply, val_main_v2_apply, val_main_v0_apply, val_main_v3_apply,
    val_main_v1_apply, idx_left, idx_right]
  simp only [Ideal.hostDivf_def, Ideal.ofBits_def, Ideal.ofBits_zero_f32, zero_add, Ideal.subf_def]
  rfl

/-- The label comparison at `(i, j)` tests the labels of rows `i` and `j`. -/
theorem mask_read (i j : Fin 512) :
    val_main_v13 (F := Ideal) t (ix2 i j) = IntOp.cmpi .eq (t (ix1 i)) (t (ix1 j)) := by
  rw [val_main_v13_apply, val_main_v11_apply, val_main_v9_apply, val_main_v12_apply, val_main_v10_apply,
    idx_label_left, idx_label_right]

/-- The masked distances whose maximum is the hardest positive. -/
theorem pos_read (i j : Fin 512) :
    val_main_v14 (F := Ideal) x t (ix2 i j) = if t (ix1 i) = t (ix1 j) then dist x i j else ⊥ := by
  rw [val_main_v14_apply, mask_read, dist_read, val_main_call0_v1_apply, val_main_call0_v0_apply,
    val_main_cst_1_apply, select_cmpi_eq, Ideal.ofBits_def, word_neg_inf]

/-- The masked distances whose minimum is the hardest negative. -/
theorem neg_read (i j : Fin 512) :
    val_main_v16 (F := Ideal) x t (ix2 i j) = if t (ix1 i) = t (ix1 j) then ⊤ else dist x i j := by
  rw [val_main_v16_apply, mask_read, dist_read, val_main_call1_v1_apply, val_main_call1_v0_apply,
    val_main_cst_3_apply, select_cmpi_eq, Ideal.ofBits_def, word_pos_inf]

theorem reduces_rows : S512x512.Reduces [1] S512 := by decide

/-- Row `i` of the matrix with column `k` put back is entry `(i, k)`. -/
theorem lift_row (i : Fin 512) (k : Fin 512) : reduces_rows.lift (ix1 i) k = ix2 i k :=
  funext fun a => Fin.ext (by match a with | ⟨0, _⟩ => rfl | ⟨1, _⟩ => rfl)

/-- The maximum over the second axis is the hardest positive. -/
theorem hardPos_read (i : Fin 512) : val_main_v15 (F := Ideal) x t (ix1 i) = hardPos x t i := by
  unfold val_main_v15
  rw [Host.reduce_eq_fold_single (FloatOps.maximumf (F := Ideal) (φ := .f32)) _ _ reducesTo_S512x512_S512_d1
    reduces_rows h_S_ (ix1 i)]
  unfold hardPos
  rw [val_main_cst_2_apply, Ideal.ofBits_def, word_neg_inf]
  refine Finset.fold_congr ?_
  intro k _
  exact (congrArg (val_main_v14 (F := Ideal) x t) (lift_row i k)).trans (pos_read x t i k)

/-- The minimum over the second axis is the hardest negative. -/
theorem hardNeg_read (i : Fin 512) : val_main_v17 (F := Ideal) x t (ix1 i) = hardNeg x t i := by
  unfold val_main_v17
  rw [Host.reduce_eq_fold_single (FloatOps.minimumf (F := Ideal) (φ := .f32)) _ _ reducesTo_S512x512_S512_d1
    reduces_rows h_S_ (ix1 i)]
  unfold hardNeg
  rw [val_main_cst_4_apply, Ideal.ofBits_def, word_pos_inf]
  refine Finset.fold_congr ?_
  intro k _
  exact (congrArg (val_main_v16 (F := Ideal) x t) (lift_row i k)).trans (neg_read x t i k)

/-- The clamped margin difference is the row's loss. -/
theorem rowLoss_read (i : Fin 512) : val_main_v22 (F := Ideal) x t (ix1 i) = rowLoss x t i := by
  rw [val_main_v22_apply, val_main_v20_apply, val_main_v18_apply, hardPos_read, hardNeg_read, val_main_v19_apply,
    val_main_cst_5_apply, val_main_v21_apply, val_main_cst_6_apply]
  simp only [Ideal.maximumf_def, Ideal.addf_def, Ideal.subf_def, Ideal.ofBits_def, Ideal.ofBits_zero_f32]
  rfl

/-- A sum over the one-axis indices is the sum over the rows. -/
theorem sum_rows (f : S512.Idx → EReal) : ∑ j : S512.Idx, f j = ∑ i : Fin 512, f (ix1 i) := by
  refine Fintype.sum_equiv ⟨fun j => j 0, fun i => ix1 i, fun j => (eq_ix1 j).symm, fun _ => rfl⟩ _ _ ?_
  intro j
  exact congrArg f (eq_ix1 j)

/-- The reference's result is the mean of the row losses. -/
theorem stage_eq : val_main_v24 (F := Ideal) x t = fun _ => loss x t := by
  funext i
  rw [val_main_v24_apply, val_main_v23_apply, val_main_cst_7_apply, val_main_cst_8_apply, sum_rows]
  simp only [rowLoss_read, Ideal.hostDivf_def, Ideal.ofBits_def, Ideal.ofBits_zero_f32, zero_add]
  rfl

end Read

/-! ## The run's term -/

/-- The reference's composed term, at the exact extended reals, is the mean of the row losses. -/
theorem ref_eq (x : FVec Ideal S512x256 .f32) (t : IVec S512 32) :
    (Host.divf (Host.reduceAdd (maximumf (addf (subf (Host.reduce FloatOps.maximumf (select (cmpi .eq (broadcastInDim S512x512 ![0, 1] bcast_S512x1_S512x512_0_1 (broadcastInDim S512x1 ![0] bcast_S512_S512x1_0 t)) (broadcastInDim S512x512 ![0, 1] bcast_S1x512_S512x512_0_1 (broadcastInDim S1x512 ![1] bcast_S512_S1x512_1 t))) (Host.divf (Host.reduceAdd (Host.absf (subf (broadcastInDim S512x512x256 ![0, 1, 2] bcast_S512x1x256_S512x512x256_0_1_2 (broadcastInDim S512x1x256 ![0, 2] bcast_S512x256_S512x1x256_0_2 x)) (broadcastInDim S512x512x256 ![0, 1, 2] bcast_S1x512x256_S512x512x256_0_1_2 (broadcastInDim S1x512x256 ![1, 2] bcast_S512x256_S1x512x256_1_2 x)))) (constant S_ .f32 0x00000000#32) reducesTo_S512x512x256_S512x512_d2 h_S_) (broadcastInDim S512x512 ![] bcast_S_S512x512 (constant S_ .f32 0x43800000#32))) (broadcastInDim S512x512 ![] bcast_S_S512x512 (id (constant S_ .f32 0xFF800000#32)))) (constant S_ .f32 0xFF800000#32) reducesTo_S512x512_S512_d1 h_S_) (Host.reduce FloatOps.minimumf (select (cmpi .eq (broadcastInDim S512x512 ![0, 1] bcast_S512x1_S512x512_0_1 (broadcastInDim S512x1 ![0] bcast_S512_S512x1_0 t)) (broadcastInDim S512x512 ![0, 1] bcast_S1x512_S512x512_0_1 (broadcastInDim S1x512 ![1] bcast_S512_S1x512_1 t))) (broadcastInDim S512x512 ![] bcast_S_S512x512 (id (constant S_ .f32 0x7F800000#32))) (Host.divf (Host.reduceAdd (Host.absf (subf (broadcastInDim S512x512x256 ![0, 1, 2] bcast_S512x1x256_S512x512x256_0_1_2 (broadcastInDim S512x1x256 ![0, 2] bcast_S512x256_S512x1x256_0_2 x)) (broadcastInDim S512x512x256 ![0, 1, 2] bcast_S1x512x256_S512x512x256_0_1_2 (broadcastInDim S1x512x256 ![1, 2] bcast_S512x256_S1x512x256_1_2 x)))) (constant S_ .f32 0x00000000#32) reducesTo_S512x512x256_S512x512_d2 h_S_) (broadcastInDim S512x512 ![] bcast_S_S512x512 (constant S_ .f32 0x43800000#32)))) (constant S_ .f32 0x7F800000#32) reducesTo_S512x512_S512_d1 h_S_)) (broadcastInDim S512 ![] bcast_S_S512 (constant S_ .f32 0x3E99999A#32))) (broadcastInDim S512 ![] bcast_S_S512 (constant S_ .f32 0x00000000#32))) (constant S_ .f32 0x00000000#32) reducesTo_S512_S_d0 h_S_) (constant S_ .f32 0x44000000#32) : (⟨S_, .f32⟩ : BufTy).Contents (Elt Ideal))
      = fun _ => loss x t :=
  (val_main_v24_eq (F := Ideal) x t).trans (stage_eq x t)

/-! ## The mean over 512 rows as 32 block sums -/

/-- Row `m`'s loss for a natural number `m`, zero past the last row. -/
def rowAt (x : S512x256.Idx → EReal) (t : S512.Idx → BitVec 32) (m : ℕ) : EReal :=
  if h : m < 512 then rowLoss x t ⟨m, h⟩ else 0

theorem rowAt_val (x : S512x256.Idx → EReal) (t : S512.Idx → BitVec 32) (i : Fin 512) :
    rowAt x t i.val = rowLoss x t i := by
  unfold rowAt; rw [dif_pos i.isLt]

/-- A block's sum is the sum of sixteen consecutive rows. -/
theorem blockLoss_eq_range (x : S512x256.Idx → EReal) (t : S512.Idx → BitVec 32) (b : Fin 32) :
    blockLoss x t b = ∑ r ∈ Finset.range 16, rowAt x t (b.val * 16 + r) := by
  unfold blockLoss
  rw [← Fin.sum_univ_eq_sum_range (fun r => rowAt x t (b.val * 16 + r)) 16]
  refine Finset.sum_congr rfl fun r _ => ?_
  exact (rowAt_val x t ⟨b.val * 16 + r.val, by have := b.isLt; have := r.isLt; omega⟩).symm

/-- The first `n` blocks added from zero are the first `16 n` rows summed. -/
theorem accLoss_eq_range (x : S512x256.Idx → EReal) (t : S512.Idx → BitVec 32) :
    ∀ (n : ℕ) (h : n ≤ 32), accLoss x t n h = ∑ m ∈ Finset.range (n * 16), rowAt x t m
  | 0, _ => by simp [accLoss]
  | n + 1, h => by
    rw [accLoss, accLoss_eq_range x t n (Nat.le_of_succ_le h), blockLoss_eq_range, Nat.succ_mul,
      Finset.sum_range_add]

/-- The sum of all row losses is the 32 block sums added one after the other. -/
theorem sum_rowLoss_eq_acc (x : S512x256.Idx → EReal) (t : S512.Idx → BitVec 32) :
    ∑ i : Fin 512, rowLoss x t i = accLoss x t 32 le_rfl := by
  rw [accLoss_eq_range x t 32 le_rfl, ← Fin.sum_univ_eq_sum_range (fun m => rowAt x t m) (32 * 16)]
  exact Finset.sum_congr rfl fun i _ => (rowAt_val x t i).symm

theorem loss_eq_acc (x : S512x256.Idx → EReal) (t : S512.Idx → BitVec 32) :
    loss x t = Ideal.div (accLoss x t 32 le_rfl) c512 := by
  unfold loss; rw [sum_rowLoss_eq_acc]

end Cert.RefLoss

end
-- ==== Proof.KernelFinal.lean ====
/-
  The kernel's result is the mean of the row losses.

  After the last grid point the result's staging buffer holds the 32 block sums, added one after the other from
  zero, divided by the row count; the blocks the windows hold are rows 16 tt … 16 tt + 15 of the matrix and of the
  labels, so that total is the sum of all 512 row losses. The result window is one element wide and is written back at
  the last point only, whose block is the whole one-element array; the final host operation reshapes that array into
  the scalar result, which therefore holds the same number.
-/
import proofs.«132789_j13967233646987_2_alg».proof.Proof.KernelIdealRun
import proofs.«132789_j13967233646987_2_alg».proof.Proof.KernelValue
import proofs.«132789_j13967233646987_2_alg».proof.Proof.BlockReads
import proofs.«132789_j13967233646987_2_alg».proof.Proof.RefLoss
import proofs.«132789_j13967233646987_2_alg».proof.Proof.Spec
import Idealize.ShloMosaic.Lib.Pipeline.Value

set_option maxRecDepth 16384

noncomputable section

namespace Cert.KernelFinal

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (c : Dev nD)

/-- The mean of the row losses of the launched matrix and labels. -/
abbrev lossOf : EReal :=
  Cert.TripletSpec.loss (m ((c.tc : Thread nD τ).loc main_arg0) : S512x256.Idx → EReal)
    (m ((c.tc : Thread nD τ).loc main_arg1) : S512.Idx → BitVec 32)

/-! ## The result's staging buffer after the last point -/

/-- After the point at position 31 the result's staging buffer holds the mean of the row losses: the 32 block sums
    added from zero are the sum over all rows. -/
theorem out31 (h : 31 < cfg0.N) : outAt (F := Ideal) m c 31 h = fun _ => lossOf m c :=
  (Cert.KernelValue.outAt_eq m c (m ((c.tc : Thread nD τ).loc main_arg0) : S512x256.Idx → EReal)
      (m ((c.tc : Thread nD τ).loc main_arg1) : S512.Idx → BitVec 32)
      (fun tt r k => Cert.BlockReads.iblk0_apply m c tt r k) (fun tt => Cert.BlockReads.iblk1_eq m c tt)
      (fun tt r => Cert.BlockReads.iblk2_apply m c tt r 0) (fun tt j => Cert.BlockReads.iblk3_apply m c tt 0 j) h).trans
    (funext fun _ => (Cert.RefLoss.loss_eq_acc _ _).symm)

/-- The same at the last point however it is named. -/
theorem outAt_last (t : Fin cfg0.N) (ht : t.val = 31) : outAt (F := Ideal) m c t.val t.isLt = fun _ => lossOf m c := by
  obtain ⟨n, hn⟩ := t
  change n = 31 at ht
  subst ht
  exact out31 m c hn

/-! ## The result array when the region ends -/

/-- The result window's block is at the origin at every point. -/
theorem idx4_facts : ∀ t : Fin cfg0.N, win0_4.index t (0 : Fin 2) = 0 ∧ win0_4.index t (1 : Fin 2) = 0 :=
  (by decide +kernel : ∀ t : Fin grid0.N, _)

/-- An index of the result array is in point `t`'s block iff each coordinate is in the block's range on its axis. -/
theorem mem_blk4 (t : Fin cfg0.N) (i : S1x1.Idx) :
    i ∈ ((cfg0.win 4).blk t).view.set ↔ ∀ a : Fin 2, win0_4.index t a * S1x1.size a ≤ (i a).val ∧ (i a).val < win0_4.index t a * S1x1.size a + S1x1.size a := by
  show i ∈ ((View.whole main_v2).slice (win0_4.rect t)).set ↔ _
  rw [View.set_slice_whole, Rect.mem_set_unit]
  exact Iff.rfl

/-- The result array ends holding the mean of the row losses: the last point writes back its staging buffer, and that
    point's block is the whole array. -/
theorem res_eq : (res m c : S1x1.Idx → EReal) = fun _ => lossOf m c := by
  have hN : cfg0.N = 32 := N_0
  refine (dats m 0 c).arrAt_eq_of_cover 4 (fun _ => lossOf m c) ?_ ?_
  · intro t hf
    have ht : t.val = 31 := by have h1 := (flush0_4 t).mp hf; have h2 := t.isLt; omega
    show (cfg0.win 4).cut (grid0.coords t) ((dats m 0 c).after 4 t) = _
    rw [after0_4, outAt_last m c t ht]
    funext y
    rw [View.read_apply]
    rfl
  · intro i
    refine ⟨⟨31, by omega⟩, (flush0_4 _).mpr rfl, ?_⟩
    rw [mem_blk4]
    obtain ⟨e0, e1⟩ := idx4_facts ⟨31, by omega⟩
    intro a
    match a with
    | ⟨0, _⟩ =>
      show win0_4.index ⟨31, _⟩ (0 : Fin 2) * 1 ≤ (i 0).val ∧ (i 0).val < win0_4.index ⟨31, _⟩ (0 : Fin 2) * 1 + 1
      have hi : (i 0).val < 1 := (i 0).isLt
      omega
    | ⟨1, _⟩ =>
      show win0_4.index ⟨31, _⟩ (1 : Fin 2) * 1 ≤ (i 1).val ∧ (i 1).val < win0_4.index ⟨31, _⟩ (1 : Fin 2) * 1 + 1
      have hi : (i 1).val < 1 := (i 1).isLt
      omega

/-! ## The scalar result -/

/-- The last host operation reshapes the result array into the scalar, which holds the same number. -/
theorem final_v3 :
    (StableHlo.after hostOps1 (V1 m c) (Proc.devRef .tc main_v3) : S_.Idx → EReal) = fun _ => lossOf m c := by
  have e : (StableHlo.after hostOps1 (V1 m c) (Proc.devRef .tc main_v3) : S_.Idx → EReal)
      = shapeCast S_ (V1 m c (Proc.devRef .tc main_v2) : S1x1.Idx → EReal) shapeCasts_S1x1_S_ := by
    dsimp only [hostOps1]
    after_results
    rfl
  rw [e, V1_v2, res_eq]
  rfl

end Cert.KernelFinal

end
-- ==== Proof.lean ====
/-
  A triplet margin loss over 512 rows of 256 numbers and 512 integer labels: a kernel that walks the rows in 32 blocks of 16
  against the plain array program.

  The distance of two rows is the mean absolute difference of their entries. For every row the kernel and the reference
  take the greatest distance to a row of the same label and the least distance to a row of another label, add the margin to
  their difference, clamp at zero, and average the 512 results. The reference masks the two reductions with the infinities;
  the kernel masks them with two finite literals of huge magnitude, which the idealized kernel NAMES: `neg_big` is `⊥` and
  `pos_big` is `⊤` there (the two `preserves` conjuncts), so that on the extended reals both sides mask alike. The kernel
  adds the losses of one block of 16 rows at a time into a one-element accumulator, from zero, and divides by 512 at the
  last block; the reference sums all 512 at once and divides. Addition on the extended reals is commutative and
  associative, so the two groupings give one sum: no finiteness of the inputs is used anywhere.

  The three frames: each kernel program's run (two reshapes of the labels, the region of 32 grid points, a reshape of the
  result) is composed of its segments in the modules imported below, the two windows onto the first argument each holding
  one half of its share; the reference's is its run read back with the result dropped.
-/
import proofs.«132789_j13967233646987_2_alg».proof.Defs
import proofs.«132789_j13967233646987_2_alg».proof.Proof.Gen.Kernel
import proofs.«132789_j13967233646987_2_alg».proof.Proof.Gen.KernelIdeal
import proofs.«132789_j13967233646987_2_alg».proof.Proof.Gen.ReferenceIdeal
import proofs.«132789_j13967233646987_2_alg».proof.Proof.Gen.ReferenceIdeal.Run
import proofs.«132789_j13967233646987_2_alg».proof.Proof.Gen.ReferenceIdeal.Read
import proofs.«132789_j13967233646987_2_alg».proof.Proof.Gen.Pre_finite_inputs
import proofs.«132789_j13967233646987_2_alg».proof.Proof.KernelRun
import proofs.«132789_j13967233646987_2_alg».proof.Proof.KernelIdealRun
import proofs.«132789_j13967233646987_2_alg».proof.Proof.KernelFinal
import proofs.«132789_j13967233646987_2_alg».proof.Proof.RefLoss
import Idealize.ShloMosaic.PureOps.IdealRules
import Idealize.ShloMosaic.Adequacy
import Idealize.ShloMosaic.Init

noncomputable section

namespace Cert.Proof

open Idealize.ShloMosaic Idealize.SL.Sem

/-- The kernel as printed runs to the end, faults nowhere and leaves both arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run read back, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two named literals: the table gives `neg_big` the value `⊥` and `pos_big` the value `⊤`, and that is what the
    idealized kernel's two constants denote. -/
theorem preserves : Cert.preserves_Kernel_KernelIdeal :=
  ⟨IdealRules.named_const.statement Cert.KernelIdeal.κ "neg_big" .f32 0xFF61B1E6#32 ⊥ rfl,
   IdealRules.named_const.statement Cert.KernelIdeal.κ "pos_big" .f32 0x7F61B1E6#32 ⊤ rfl⟩

/-- From memories that agree on the arguments both idealized programs end with the mean loss of those arguments as their
    scalar result: the kernel's run ends with the reshape of its result array, which holds the accumulated block losses over
    512; the reference's run ends at its composed term, which is that mean index by index. -/
theorem algebraic : Cert.algebraic_KernelIdeal_ReferenceIdeal := by
  intro m ρ m' ρ' _ hagree
  refine ⟨fun c => fun _ => Cert.KernelFinal.lossOf m c, ?_, ?_⟩
  · exact (θ_run Cert.KernelIdeal.defs _ _).mono
      (fun _ h c => ⟨(h c).1.trans (Cert.KernelFinal.final_v3 m c), (h c).2⟩)
      (Cert.KernelIdeal.Gen.run_main (F := Ideal) m ρ)
  · refine (θ_run Cert.ReferenceIdeal.defs _ _).mono (fun _ h c => ⟨?_, (h c).2⟩)
      (Cert.ReferenceIdeal.Value.run (F := Ideal) m' ρ')
    rw [(h c).1, (hagree c).1, (hagree c).2]
    exact Cert.RefLoss.ref_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
